-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x78 : Shape := ⟨2, ![100000, 78]⟩
abbrev S3x78x32 : Shape := ⟨3, ![3, 78, 32]⟩
abbrev S32 : Shape := ⟨1, ![32]⟩
abbrev S3x32x32 : Shape := ⟨3, ![3, 32, 32]⟩
abbrev S32x1 : Shape := ⟨2, ![32, 1]⟩
abbrev S1 : Shape := ⟨1, ![1]⟩
abbrev S2x3200000 : Shape := ⟨2, ![2, 3200000]⟩
abbrev S100000 : Shape := ⟨1, ![100000]⟩
abbrev S_ : Shape := ⟨0, ![]⟩

class Facts : Prop where
  bcast_S_S100000x78 : S_.BroadcastsInDim S100000x78 (![] : Fin 0 → Fin S100000x78.rank)
  reducesTo_S100000x78_S_d0_1 : S100000x78.ReducesTo [0, 1] S_
  h_S_ : 0 < S_.numel
  bcast_S_S3x78x32 : S_.BroadcastsInDim S3x78x32 (![] : Fin 0 → Fin S3x78x32.rank)
  reducesTo_S3x78x32_S_d0_1_2 : S3x78x32.ReducesTo [0, 1, 2] S_
  bcast_S_S32 : S_.BroadcastsInDim S32 (![] : Fin 0 → Fin S32.rank)
  reducesTo_S32_S_d0 : S32.ReducesTo [0] S_
  bcast_S_S3x32x32 : S_.BroadcastsInDim S3x32x32 (![] : Fin 0 → Fin S3x32x32.rank)
  reducesTo_S3x32x32_S_d0_1_2 : S3x32x32.ReducesTo [0, 1, 2] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S32 .f32) (main_arg5 : FVec F S32x1 .f32) (main_arg6 : FVec F S1 .f32) (main_v13 : IVec S_ 1) (main_v16 : IVec S3x32x32 1) : IVec S_ 1 :=
  let main_c_5 : IVec S_ 1 := constantI S_ 1 1#1
  let main_v17 : IVec S_ 1 := (fun x v => Host.reduce IntOp.andi x v reducesTo_S3x32x32_S_d0_1_2 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg5
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x78 .f32) (main_arg1 : FVec F S3x78x32 .f32) (main_arg2 : FVec F S32 .f32) (main_arg3 : FVec F S3x32x32 .f32) (main_arg4 : FVec F S32 .f32) (main_arg5 : FVec F S32x1 .f32) (main_arg6 : FVec F S1 .f32) (main_arg7 : IVec S2x3200000 32) (main_arg8 : IVec S100000 32) : IVec S_ 1 :=
  let main_v0 : FVec F S100000x78 .f32 := Host.absf main_arg0
  let main_cst : FVec F S_ .f32 := constant S_ .f32 0x7F800000#32
  let main_v1 : FVec F S100000x78 .f32 := broadcastInDim S100000x78 ![] bcast_S_S100000x78 main_cst
  let main_v2 : IVec S100000x78 1 := cmpf .olt main_v0 main_v1
  let main_c : IVec S_ 1 := constantI S_ 1 1#1
  let main_v3 : IVec S_ 1 := (fun x v => Host.reduce IntOp.andi x v reducesTo_S100000x78_S_d0_1 h_S_) main_v2 main_c
  let main_v4 : FVec F S3x78x32 .f32 := Host.absf main_arg1
  let main_cst_0 : FVec F S_ .f32 := constant S_ .f32 0x7F800000#32
  let main_v5 : FVec F S3x78x32 .f32 := broadcastInDim S3x78x32 ![] bcast_S_S3x78x32 main_cst_0
  let main_v6 : IVec S3x78x32 1 := cmpf .olt main_v4 main_v5
  let main_c_1 : IVec S_ 1 := constantI S_ 1 1#1
  let main_v7 : IVec S_ 1 := (fun x v => Host.reduce IntOp.andi x v reducesTo_S3x78x32_S_d0_1_2 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S3x32x32 .f32 := Host.absf main_arg3
  let main_cst_4 : FVec F S_ .f32 := constant S_ .f32 0x7F800000#32
  let main_v15 : FVec F S3x32x32 .f32 := broadcastInDim S3x32x32 ![] bcast_S_S3x32x32 main_cst_4
  let main_v16 : IVec S3x32x32 1 := cmpf .olt main_v14 main_v15
  fn_part1 (F := F) main_arg4 main_arg5 main_arg6 main_v13 main_v16
-- ==== Kernel.lean ====
abbrev S100000x78 : Shape := ⟨2, ![100000, 78]⟩
abbrev S3x78x32 : Shape := ⟨3, ![3, 78, 32]⟩
abbrev S32 : Shape := ⟨1, ![32]⟩
abbrev S3x32x32 : Shape := ⟨3, ![3, 32, 32]⟩
abbrev S32x1 : Shape := ⟨2, ![32, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x78 : Shape := ⟨2, ![3200000, 78]⟩
abbrev S1x78x32 : Shape := ⟨3, ![1, 78, 32]⟩
abbrev S78x32 : Shape := ⟨2, ![78, 32]⟩
abbrev S100000x32 : Shape := ⟨2, ![100000, 32]⟩
abbrev S5000x78 : Shape := ⟨2, ![5000, 78]⟩
abbrev S5000x32 : Shape := ⟨2, ![5000, 32]⟩
abbrev S1x32 : Shape := ⟨2, ![1, 32]⟩
abbrev S3200000x32 : Shape := ⟨2, ![3200000, 32]⟩
abbrev S1x32x32 : Shape := ⟨3, ![1, 32, 32]⟩
abbrev S32x32 : Shape := ⟨2, ![32, 32]⟩
abbrev S2000 : Shape := ⟨1, ![2000]⟩
abbrev S100000x1 : Shape := ⟨2, ![100000, 1]⟩
abbrev S2000x32 : Shape := ⟨2, ![2000, 32]⟩
abbrev S2000x1 : Shape := ⟨2, ![2000, 1]⟩
abbrev S1x1 : Shape := ⟨2, ![1, 1]⟩

abbrev nBuf : Space → Nat
  | .hbm => 157
  | .vmem => 28
  | .smem => 0
  | _ => 0

abbrev hbmTy0_0 (i : Nat) : BufTy := match i % 128 with
  | 0 => ⟨S100000x78, .f32⟩
  | 1 => ⟨S3x78x32, .f32⟩
  | 2 => ⟨S32, .f32⟩
  | 3 => ⟨S3x32x32, .f32⟩
  | 4 => ⟨S32, .f32⟩
  | 5 => ⟨S32x1, .f32⟩
  | 6 => ⟨S1, .f32⟩
  | 7 => ⟨S2x3200000, .i32⟩
  | 8 => ⟨S100000, .i32⟩
  | 9 => ⟨S1x3200000, .i32⟩
  | 10 => ⟨S3200000, .i32⟩
  | 11 => ⟨S1x3200000, .i32⟩
  | 12 => ⟨S3200000, .i32⟩
  | 13 => ⟨S_, .f32⟩
  | 14 => ⟨S3200000, .f32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000, .f32⟩
  | 52 => ⟨S3200000, .f32⟩
  | 53 => ⟨S3200000x1, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x78, .f32⟩
  | 63 => ⟨S3200000x78, .f32⟩
  | 64 => ⟨S3200000x78, .f32⟩
  | 65 => ⟨S_, .f32⟩
  | 66 => ⟨S100000x78, .f32⟩
  | 67 => ⟨S3200000x1, .i32⟩
  | 68 => ⟨S100000x78, .f32⟩
  | 69 => ⟨S3200000x1, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000x78, .f32⟩
  | 79 => ⟨S3200000x78, .f32⟩
  | 80 => ⟨S3200000x78, .f32⟩
  | 81 => ⟨S_, .f32⟩
  | 82 => ⟨S100000x78, .f32⟩
  | 83 => ⟨S3200000x1, .i32⟩
  | 84 => ⟨S100000x78, .f32⟩
  | 85 => ⟨S_, .f32⟩
  | 86 => ⟨S100000x78, .f32⟩
  | 87 => ⟨S100000x78, .f32⟩
  | 88 => ⟨S100000x78, .f32⟩
  | 89 => ⟨S1x78x32, .f32⟩
  | 90 => ⟨S78x32, .f32⟩
  | 91 => ⟨S1x78x32, .f32⟩
  | 92 => ⟨S78x32, .f32⟩
  | 93 => ⟨S1x78x32, .f32⟩
  | 94 => ⟨S78x32, .f32⟩
  | 95 => ⟨S100000x32, .f32⟩
  | 96 => ⟨S3200000x1, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000x32, .f32⟩
  | 106 => ⟨S3200000x32, .f32⟩
  | 107 => ⟨S3200000x32, .f32⟩
  | 108 => ⟨S_, .f32⟩
  | 109 => ⟨S100000x32, .f32⟩
  | 110 => ⟨S3200000x1, .i32⟩
  | 111 => ⟨S100000x32, .f32⟩
  | 112 => ⟨S3200000x1, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x32, .f32⟩
  | 122 => ⟨S3200000x32, .f32⟩
  | 123 => ⟨S3200000x32, .f32⟩
  | 124 => ⟨S_, .f32⟩
  | 125 => ⟨S100000x32, .f32⟩
  | 126 => ⟨S3200000x1, .i32⟩
  | 127 => ⟨S100000x32, .f32⟩
  | _ => ⟨S100000x78, .f32⟩

abbrev hbmTy0_1 (i : Nat) : BufTy := match i % 128 with
  | 0 => ⟨S_, .f32⟩
  | 1 => ⟨S100000x32, .f32⟩
  | 2 => ⟨S100000x32, .f32⟩
  | 3 => ⟨S100000x32, .f32⟩
  | 4 => ⟨S1x32x32, .f32⟩
  | 5 => ⟨S32x32, .f32⟩
  | 6 => ⟨S1x32x32, .f32⟩
  | 7 => ⟨S32x32, .f32⟩
  | 8 => ⟨S1x32x32, .f32⟩
  | 9 => ⟨S32x32, .f32⟩
  | 10 => ⟨S100000x32, .f32⟩
  | 11 => ⟨S_, .f32⟩
  | 12 => ⟨S100000, .f32⟩
  | 13 => ⟨S_, .f32⟩
  | 14 => ⟨S2000, .f32⟩
  | 15 => ⟨S100000x1, .i32⟩
  | 16 => ⟨S2000, .f32⟩
  | 17 => ⟨S_, .f32⟩
  | 18 => ⟨S2000x32, .f32⟩
  | 19 => ⟨S100000x1, .i32⟩
  | 20 => ⟨S2000x32, .f32⟩
  | 21 => ⟨S_, .f32⟩
  | 22 => ⟨S2000, .f32⟩
  | 23 => ⟨S2000, .f32⟩
  | 24 => ⟨S2000x1, .f32⟩
  | 25 => ⟨S2000x32, .f32⟩
  | 26 => ⟨S2000x32, .f32⟩
  | 27 => ⟨S2000x1, .f32⟩
  | 28 => ⟨S2000, .f32⟩
  | _ => ⟨S100000x78, .f32⟩

abbrev hbmTy (i : Nat) : BufTy := match i / 128 with
  | 0 => hbmTy0_0 i
  | 1 => hbmTy0_1 i
  | _ => ⟨S100000x78, .f32⟩

abbrev bufTy : (tb : Table) → Fin (tcTables nBuf tb) → BufTy
  | .hbm, ⟨i, _⟩ => hbmTy i
  | .local _ .vmem, ⟨0, _⟩ => ⟨S5000x78, .f32⟩
  | .local _ .vmem, ⟨1, _⟩ => ⟨S5000x78, .f32⟩
  | .local _ .vmem, ⟨2, _⟩ => ⟨S5000x78, .f32⟩
  | .local _ .vmem, ⟨3, _⟩ => ⟨S5000x78, .f32⟩
  | .local _ .vmem, ⟨4, _⟩ => ⟨S5000x78, .f32⟩
  | .local _ .vmem, ⟨5, _⟩ => ⟨S5000x78, .f32⟩
  | .local _ .vmem, ⟨6, _⟩ => ⟨S78x32, .f32⟩
  | .local _ .vmem, ⟨7, _⟩ => ⟨S78x32, .f32⟩
  | .local _ .vmem, ⟨8, _⟩ => ⟨S78x32, .f32⟩
  | .local _ .vmem, ⟨9, _⟩ => ⟨S32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S32x32, .f32⟩
  | .local _ .vmem, ⟨19, _⟩ => ⟨S32x32, .f32⟩
  | .local _ .vmem, ⟨20, _⟩ => ⟨S32x32, .f32⟩
  | .local _ .vmem, ⟨21, _⟩ => ⟨S32, .f32⟩
  | .local _ .vmem, ⟨22, _⟩ => ⟨S5000x32, .f32⟩
  | .local _ .vmem, ⟨23, _⟩ => ⟨S5000x32, .f32⟩
  | .local _ .vmem, ⟨24, _⟩ => ⟨S2000x32, .f32⟩
  | .local _ .vmem, ⟨25, _⟩ => ⟨S32x1, .f32⟩
  | .local _ .vmem, ⟨26, _⟩ => ⟨S1, .f32⟩
  | .local _ .vmem, ⟨27, _⟩ => ⟨S2000x1, .f32⟩
  | _, _ => ⟨S100000x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_18 : Ref sig .tc := ⟨.hbm, 113, rfl⟩
abbrev main_v82 : Ref sig .tc := ⟨.hbm, 114, rfl⟩
abbrev main_v83 : Ref sig .tc := ⟨.hbm, 115, rfl⟩
abbrev main_c_19 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_21 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_22 : Ref sig .tc := ⟨.hbm, 139, rfl⟩
abbrev main_v104 : Ref sig .tc := ⟨.hbm, 140, rfl⟩
abbrev main_cst_23 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_24 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_25 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem1_0 : DmaSem sig := 25
abbrev cc2_sem2_0 : DmaSem sig := 26
abbrev cc2_sem3_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x78 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x78 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S78x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S78x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S78x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2000x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2000x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x78_0_1 : S3200000x1.BroadcastsInDim S3200000x78 (![0, 1] : Fin 2 → Fin S3200000x78.rank)
  bcast_S_S100000x78 : S_.BroadcastsInDim S100000x78 (![] : Fin 0 → Fin S100000x78.rank)
  slices_S3x78x32_S1x78x32_0_0_0 : S3x78x32.Slices ![0, 0, 0] S1x78x32
  shapeCasts_S1x78x32_S78x32 : S1x78x32.ShapeCasts S78x32
  slices_S3x78x32_S1x78x32_1_0_0 : S3x78x32.Slices ![1, 0, 0] S1x78x32
  slices_S3x78x32_S1x78x32_2_0_0 : S3x78x32.Slices ![2, 0, 0] S1x78x32
  inb_S5000x78_S5000x78_0_0 : ∀ a, (![0, 0] : Fin 2 → Nat) a + S5000x78.size a ≤ S5000x78.size a
  h_S5000x78 : 0 < S5000x78.numel
  bitsLt_bf16_f32 : FTy.bits .bf16 < FTy.bits .f32
  inb_S78x32_S78x32_0_0 : ∀ a, (![0, 0] : Fin 2 → Nat) a + S78x32.size a ≤ S78x32.size a
  h_S78x32 : 0 < S78x32.numel
  shapeCasts_S78x32_S78x32 : S78x32.ShapeCasts S78x32
  shapeCasts_S5000x78_S5000x78 : S5000x78.ShapeCasts S5000x78
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  slices_S3x32x32_S1x32x32_0_0_0 : S3x32x32.Slices ![0, 0, 0] S1x32x32
  shapeCasts_S1x32x32_S32x32 : S1x32x32.ShapeCasts S32x32
  slices_S3x32x32_S1x32x32_1_0_0 : S3x32x32.Slices ![1, 0, 0] S1x32x32
  slices_S3x32x32_S1x32x32_2_0_0 : S3x32x32.Slices ![2, 0, 0] S1x32x32
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bcast_S_S2000 : S_.BroadcastsInDim S2000 (![] : Fin 0 → Fin S2000.rank)
  bcast_S100000_S100000x1_0 : S100000.BroadcastsInDim S100000x1 (![0] : Fin 1 → Fin S100000x1.rank)
  bcast_S_S2000x32 : S_.BroadcastsInDim S2000x32 (![] : Fin 0 → Fin S2000x32.rank)
  bcast_S2000_S2000x1_0 : S2000.BroadcastsInDim S2000x1 (![0] : Fin 1 → Fin S2000x1.rank)
  bcast_S2000x1_S2000x32_0_1 : S2000x1.BroadcastsInDim S2000x32 (![0, 1] : Fin 2 → Fin S2000x32.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S2000x1_S2000 : S2000x1.ShapeCasts S2000
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x78_S3200000x1_S3200000x78_1_0_n_n_0_1_178_wf : GatherDims.WF S100000x78 S3200000x1 S3200000x78 [1] [0] [] [0] [] 1 ![1, 78]
  scatter_S100000x78_S3200000x1_S3200000x78_1_0_0_1_wf : ScatterDims.WF S100000x78 S3200000x1 S3200000x78 [1] [0] [0] 1
  dot_S5000x78_S78x32_S5000x32_1_0_0_1_n_n_wf : DotDims.WF S5000x78 S78x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x32_S5000x32_1_0_0_1_n_n_wf : DotDims.WF S5000x32 S32x32 S5000x32 [1] [0] [0] [1] [] []
  scatter_S2000_S100000x1_S100000_n_0_0_1_wf : ScatterDims.WF S2000 S100000x1 S100000 [] [0] [0] 1
  scatter_S2000x32_S100000x1_S100000x32_1_0_0_1_wf : ScatterDims.WF S2000x32 S100000x1 S100000x32 [1] [0] [0] 1
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x78.size a ≤ S100000x78.size a
  hwx0_0 : ∀ i : grid0.Coords, EltTy.bits .f32 = 32 ∨ (Rect.block (s := S100000x78) S5000x78.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x78.size a ≤ S100000x78.size a
  hwx0_1 : ∀ i : grid0.Coords, EltTy.bits .f32 = 32 ∨ (Rect.block (s := S100000x78) S5000x78.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x78.size a ≤ S100000x78.size a
  hwx0_2 : ∀ i : grid0.Coords, EltTy.bits .f32 = 32 ∨ (Rect.block (s := S100000x78) S5000x78.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S78x32.size a ≤ S78x32.size a
  hwx0_3 : ∀ i : grid0.Coords, EltTy.bits .f32 = 32 ∨ (Rect.block (s := S78x32) S78x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S78x32.size a ≤ S78x32.size a
  hwx0_4 : ∀ i : grid0.Coords, EltTy.bits .f32 = 32 ∨ (Rect.block (s := S78x32) S78x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S78x32.size a ≤ S78x32.size a
  hwx0_5 : ∀ i : grid0.Coords, EltTy.bits .f32 = 32 ∨ (Rect.block (s := S78x32) S78x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x32.size a ≤ S100000x32.size a
  hwx0_7 : ∀ i : grid0.Coords, EltTy.bits .f32 = 32 ∨ (Rect.block (s := S100000x32) S5000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x32.size a ≤ S100000x32.size a
  hwx1_7 : ∀ i : grid1.Coords, EltTy.bits .f32 = 32 ∨ (Rect.block (s := S100000x32) S5000x32.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S2000x32.size a
  hwx2_0 : ∀ i : grid2.Coords, EltTy.bits .f32 = 32 ∨ (Rect.block (s := S2000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x1.size a ≤ S32x1.size a
  hwx2_1 : ∀ i : grid2.Coords, EltTy.bits .f32 = 32 ∨ (Rect.block (s := S32x1) S32x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1.size a ≤ S1.size a
  hwx2_2 : ∀ i : grid2.Coords, EltTy.bits .f32 = 32 ∨ (Rect.block (s := S1) S1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S2000x1.size a
  hwx2_3 : ∀ i : grid2.Coords, EltTy.bits .f32 = 32 ∨ (Rect.block (s := S2000x1) S2000x1.size (cc2_transform_3 i) (hinb2_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x78_S3200000x1_S3200000x78_1_0_n_n_0_1_178 : GatherDims S100000x78 S3200000x1 S3200000x78 where
  offsetDims := [1]
  collapsedSliceDims := [0]
  operandBatchingDims := []
  startIndicesBatchingDims := []
  startIndexMap := [0]
  indexVectorDim := 1
  sliceSizes := ![1, 78]
  wf := gather_S100000x78_S3200000x1_S3200000x78_1_0_n_n_0_1_178_wf
def scatter_S100000x78_S3200000x1_S3200000x78_1_0_0_1 : ScatterDims S100000x78 S3200000x1 S3200000x78 where
  updateWindowDims := [1]
  insertedWindowDims := [0]
  scatterDimsToOperandDims := [0]
  indexVectorDim := 1
  wf := scatter_S100000x78_S3200000x1_S3200000x78_1_0_0_1_wf
def dot_S5000x78_S78x32_S5000x32_1_0_0_1_n_n : DotDims S5000x78 S78x32 S5000x32 where
  lhsContracting := [1]
  rhsContracting := [0]
  lhsNonContracting := [0]
  rhsNonContracting := [1]
  lhsBatch := []
  rhsBatch := []
  wf := dot_S5000x78_S78x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def scatter_S2000x32_S100000x1_S100000x32_1_0_0_1 : ScatterDims S2000x32 S100000x1 S100000x32 where
  updateWindowDims := [1]
  insertedWindowDims := [0]
  scatterDimsToOperandDims := [0]
  indexVectorDim := 1
  wf := scatter_S2000x32_S100000x1_S100000x32_1_0_0_1_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_arg0) S5000x78.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S5000x78.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S5000x78.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v62) S78x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v64) S78x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v66) S78x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v67) S5000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v67) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v96) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v98) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v100) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v102) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v103) S5000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v115) S2000x32.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v116) S2000x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x78 : Shape := ⟨2, ![100000, 78]⟩
abbrev S3x78x32 : Shape := ⟨3, ![3, 78, 32]⟩
abbrev S32 : Shape := ⟨1, ![32]⟩
abbrev S3x32x32 : Shape := ⟨3, ![3, 32, 32]⟩
abbrev S32x1 : Shape := ⟨2, ![32, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x78x32 : Shape := ⟨3, ![1, 78, 32]⟩
abbrev S78x32 : Shape := ⟨2, ![78, 32]⟩
abbrev S100000x32 : Shape := ⟨2, ![100000, 32]⟩
abbrev S3200000x78 : Shape := ⟨2, ![3200000, 78]⟩
abbrev S1x32 : Shape := ⟨2, ![1, 32]⟩
abbrev S1x32x32 : Shape := ⟨3, ![1, 32, 32]⟩
abbrev S32x32 : Shape := ⟨2, ![32, 32]⟩
abbrev S3200000x32 : Shape := ⟨2, ![3200000, 32]⟩
abbrev S2000 : Shape := ⟨1, ![2000]⟩
abbrev S100000x1 : Shape := ⟨2, ![100000, 1]⟩
abbrev S2000x32 : Shape := ⟨2, ![2000, 32]⟩
abbrev S2000x1 : Shape := ⟨2, ![2000, 1]⟩
abbrev S1x1 : Shape := ⟨2, ![1, 1]⟩

abbrev nBuf : Space → Nat
  | .hbm => 180
  | .vmem => 0
  | .smem => 0
  | _ => 0

abbrev hbmTy0_0 (i : Nat) : BufTy := match i % 128 with
  | 0 => ⟨S100000x78, .f32⟩
  | 1 => ⟨S3x78x32, .f32⟩
  | 2 => ⟨S32, .f32⟩
  | 3 => ⟨S3x32x32, .f32⟩
  | 4 => ⟨S32, .f32⟩
  | 5 => ⟨S32x1, .f32⟩
  | 6 => ⟨S1, .f32⟩
  | 7 => ⟨S2x3200000, .i32⟩
  | 8 => ⟨S100000, .i32⟩
  | 9 => ⟨S1x3200000, .i32⟩
  | 10 => ⟨S3200000, .i32⟩
  | 11 => ⟨S1x3200000, .i32⟩
  | 12 => ⟨S3200000, .i32⟩
  | 13 => ⟨S_, .f32⟩
  | 14 => ⟨S3200000, .f32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000, .f32⟩
  | 52 => ⟨S3200000, .f32⟩
  | 53 => ⟨S1x78x32, .f32⟩
  | 54 => ⟨S78x32, .f32⟩
  | 55 => ⟨S100000x32, .f32⟩
  | 56 => ⟨S3200000x1, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000x78, .f32⟩
  | 66 => ⟨S3200000x78, .f32⟩
  | 67 => ⟨S3200000x78, .f32⟩
  | 68 => ⟨S_, .f32⟩
  | 69 => ⟨S100000x78, .f32⟩
  | 70 => ⟨S3200000x1, .i32⟩
  | 71 => ⟨S100000x78, .f32⟩
  | 72 => ⟨S1x78x32, .f32⟩
  | 73 => ⟨S78x32, .f32⟩
  | 74 => ⟨S100000x32, .f32⟩
  | 75 => ⟨S100000x32, .f32⟩
  | 76 => ⟨S3200000x1, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x78, .f32⟩
  | 86 => ⟨S3200000x78, .f32⟩
  | 87 => ⟨S3200000x78, .f32⟩
  | 88 => ⟨S_, .f32⟩
  | 89 => ⟨S100000x78, .f32⟩
  | 90 => ⟨S3200000x1, .i32⟩
  | 91 => ⟨S100000x78, .f32⟩
  | 92 => ⟨S_, .f32⟩
  | 93 => ⟨S100000x78, .f32⟩
  | 94 => ⟨S100000x78, .f32⟩
  | 95 => ⟨S100000x78, .f32⟩
  | 96 => ⟨S1x78x32, .f32⟩
  | 97 => ⟨S78x32, .f32⟩
  | 98 => ⟨S100000x32, .f32⟩
  | 99 => ⟨S100000x32, .f32⟩
  | 100 => ⟨S1x32, .f32⟩
  | 101 => ⟨S100000x32, .f32⟩
  | 102 => ⟨S100000x32, .f32⟩
  | 103 => ⟨S_, .f32⟩
  | 104 => ⟨S100000x32, .f32⟩
  | 105 => ⟨S100000x32, .f32⟩
  | 106 => ⟨S1x32x32, .f32⟩
  | 107 => ⟨S32x32, .f32⟩
  | 108 => ⟨S100000x32, .f32⟩
  | 109 => ⟨S3200000x1, .f32⟩
  | 110 => ⟨S_, .i32⟩
  | 111 => ⟨S3200000, .i32⟩
  | 112 => ⟨S3200000, .i1⟩
  | 113 => ⟨S_, .i32⟩
  | 114 => ⟨S3200000, .i32⟩
  | 115 => ⟨S3200000, .i32⟩
  | 116 => ⟨S3200000, .i32⟩
  | 117 => ⟨S3200000x1, .i32⟩
  | 118 => ⟨S3200000x32, .f32⟩
  | 119 => ⟨S3200000x32, .f32⟩
  | 120 => ⟨S3200000x32, .f32⟩
  | 121 => ⟨S_, .f32⟩
  | 122 => ⟨S100000x32, .f32⟩
  | 123 => ⟨S3200000x1, .i32⟩
  | 124 => ⟨S100000x32, .f32⟩
  | 125 => ⟨S1x32x32, .f32⟩
  | 126 => ⟨S32x32, .f32⟩
  | 127 => ⟨S100000x32, .f32⟩
  | _ => ⟨S100000x78, .f32⟩

abbrev hbmTy0_1 (i : Nat) : BufTy := match i % 128 with
  | 0 => ⟨S100000x32, .f32⟩
  | 1 => ⟨S3200000x1, .f32⟩
  | 2 => ⟨S_, .i32⟩
  | 3 => ⟨S3200000, .i32⟩
  | 4 => ⟨S3200000, .i1⟩
  | 5 => ⟨S_, .i32⟩
  | 6 => ⟨S3200000, .i32⟩
  | 7 => ⟨S3200000, .i32⟩
  | 8 => ⟨S3200000, .i32⟩
  | 9 => ⟨S3200000x1, .i32⟩
  | 10 => ⟨S3200000x32, .f32⟩
  | 11 => ⟨S3200000x32, .f32⟩
  | 12 => ⟨S3200000x32, .f32⟩
  | 13 => ⟨S_, .f32⟩
  | 14 => ⟨S100000x32, .f32⟩
  | 15 => ⟨S3200000x1, .i32⟩
  | 16 => ⟨S100000x32, .f32⟩
  | 17 => ⟨S_, .f32⟩
  | 18 => ⟨S100000x32, .f32⟩
  | 19 => ⟨S100000x32, .f32⟩
  | 20 => ⟨S100000x32, .f32⟩
  | 21 => ⟨S1x32x32, .f32⟩
  | 22 => ⟨S32x32, .f32⟩
  | 23 => ⟨S100000x32, .f32⟩
  | 24 => ⟨S100000x32, .f32⟩
  | 25 => ⟨S1x32, .f32⟩
  | 26 => ⟨S100000x32, .f32⟩
  | 27 => ⟨S100000x32, .f32⟩
  | 28 => ⟨S_, .f32⟩
  | 29 => ⟨S100000x32, .f32⟩
  | 30 => ⟨S100000x32, .f32⟩
  | 31 => ⟨S_, .f32⟩
  | 32 => ⟨S100000, .f32⟩
  | 33 => ⟨S_, .f32⟩
  | 34 => ⟨S2000, .f32⟩
  | 35 => ⟨S100000x1, .i32⟩
  | 36 => ⟨S2000, .f32⟩
  | 37 => ⟨S_, .f32⟩
  | 38 => ⟨S2000x32, .f32⟩
  | 39 => ⟨S100000x1, .i32⟩
  | 40 => ⟨S2000x32, .f32⟩
  | 41 => ⟨S_, .f32⟩
  | 42 => ⟨S2000, .f32⟩
  | 43 => ⟨S2000, .f32⟩
  | 44 => ⟨S2000x1, .f32⟩
  | 45 => ⟨S2000x32, .f32⟩
  | 46 => ⟨S2000x32, .f32⟩
  | 47 => ⟨S2000x1, .f32⟩
  | 48 => ⟨S1x1, .f32⟩
  | 49 => ⟨S2000x1, .f32⟩
  | 50 => ⟨S2000x1, .f32⟩
  | 51 => ⟨S2000, .f32⟩
  | _ => ⟨S100000x78, .f32⟩

abbrev hbmTy (i : Nat) : BufTy := match i / 128 with
  | 0 => hbmTy0_0 i
  | 1 => hbmTy0_1 i
  | _ => ⟨S100000x78, .f32⟩

abbrev bufTy : (tb : Table) → Fin (tcTables nBuf tb) → BufTy
  | .hbm, ⟨i, _⟩ => hbmTy i
  | _, _ => ⟨S100000x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call1_cst : Ref sig .tc := ⟨.hbm, 103, rfl⟩
abbrev main_call1_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_15 : Ref sig .tc := ⟨.hbm, 110, rfl⟩
abbrev main_v80 : Ref sig .tc := ⟨.hbm, 111, rfl⟩
abbrev main_v81 : Ref sig .tc := ⟨.hbm, 112, rfl⟩
abbrev main_c_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_17 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_18 : Ref sig .tc := ⟨.hbm, 130, rfl⟩
abbrev main_v97 : Ref sig .tc := ⟨.hbm, 131, rfl⟩
abbrev main_v98 : Ref sig .tc := ⟨.hbm, 132, rfl⟩
abbrev main_c_19 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_20 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_21 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_call2_cst : Ref sig .tc := ⟨.hbm, 156, rfl⟩
abbrev main_call2_v0 : Ref sig .tc := ⟨.hbm, 157, rfl⟩
abbrev main_v119 : Ref sig .tc := ⟨.hbm, 158, rfl⟩
abbrev main_cst_22 : Ref sig .tc := ⟨.hbm, 159, rfl⟩
abbrev main_v120 : Ref sig .tc := ⟨.hbm, 160, rfl⟩
abbrev main_cst_23 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_24 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_25 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  slices_S3x78x32_S1x78x32_0_0_0 : S3x78x32.Slices ![0, 0, 0] S1x78x32
  shapeCasts_S1x78x32_S78x32 : S1x78x32.ShapeCasts S78x32
  bcast_S3200000x1_S3200000x78_0_1 : S3200000x1.BroadcastsInDim S3200000x78 (![0, 1] : Fin 2 → Fin S3200000x78.rank)
  bcast_S_S100000x78 : S_.BroadcastsInDim S100000x78 (![] : Fin 0 → Fin S100000x78.rank)
  slices_S3x78x32_S1x78x32_1_0_0 : S3x78x32.Slices ![1, 0, 0] S1x78x32
  slices_S3x78x32_S1x78x32_2_0_0 : S3x78x32.Slices ![2, 0, 0] S1x78x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S3x32x32_S1x32x32_0_0_0 : S3x32x32.Slices ![0, 0, 0] S1x32x32
  shapeCasts_S1x32x32_S32x32 : S1x32x32.ShapeCasts S32x32
  bcast_S3200000x1_S3200000x32_0_1 : S3200000x1.BroadcastsInDim S3200000x32 (![0, 1] : Fin 2 → Fin S3200000x32.rank)
  slices_S3x32x32_S1x32x32_1_0_0 : S3x32x32.Slices ![1, 0, 0] S1x32x32
  slices_S3x32x32_S1x32x32_2_0_0 : S3x32x32.Slices ![2, 0, 0] S1x32x32
  bcast_S_S2000 : S_.BroadcastsInDim S2000 (![] : Fin 0 → Fin S2000.rank)
  bcast_S100000_S100000x1_0 : S100000.BroadcastsInDim S100000x1 (![0] : Fin 1 → Fin S100000x1.rank)
  bcast_S_S2000x32 : S_.BroadcastsInDim S2000x32 (![] : Fin 0 → Fin S2000x32.rank)
  bcast_S2000_S2000x1_0 : S2000.BroadcastsInDim S2000x1 (![0] : Fin 1 → Fin S2000x1.rank)
  bcast_S2000x1_S2000x32_0_1 : S2000x1.BroadcastsInDim S2000x32 (![0, 1] : Fin 2 → Fin S2000x32.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  shapeCasts_S2000x1_S2000 : S2000x1.ShapeCasts S2000
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x78_S78x32_S100000x32_1_0_0_1_n_n_wf : DotDims.WF S100000x78 S78x32 S100000x32 [1] [0] [0] [1] [] []
  gather_S100000x78_S3200000x1_S3200000x78_1_0_n_n_0_1_178_wf : GatherDims.WF S100000x78 S3200000x1 S3200000x78 [1] [0] [] [0] [] 1 ![1, 78]
  scatter_S100000x78_S3200000x1_S3200000x78_1_0_0_1_wf : ScatterDims.WF S100000x78 S3200000x1 S3200000x78 [1] [0] [0] 1
  dot_S100000x32_S32x32_S100000x32_1_0_0_1_n_n_wf : DotDims.WF S100000x32 S32x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S2000_S100000x1_S100000_n_0_0_1_wf : ScatterDims.WF S2000 S100000x1 S100000 [] [0] [0] 1
  scatter_S2000x32_S100000x1_S100000x32_1_0_0_1_wf : ScatterDims.WF S2000x32 S100000x1 S100000x32 [1] [0] [0] 1
  dot_S2000x32_S32x1_S2000x1_1_0_0_1_n_n_wf : DotDims.WF S2000x32 S32x1 S2000x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x78_S78x32_S100000x32_1_0_0_1_n_n : DotDims S100000x78 S78x32 S100000x32 where
  lhsContracting := [1]
  rhsContracting := [0]
  lhsNonContracting := [0]
  rhsNonContracting := [1]
  lhsBatch := []
  rhsBatch := []
  wf := dot_S100000x78_S78x32_S100000x32_1_0_0_1_n_n_wf
def gather_S100000x78_S3200000x1_S3200000x78_1_0_n_n_0_1_178 : GatherDims S100000x78 S3200000x1 S3200000x78 where
  offsetDims := [1]
  collapsedSliceDims := [0]
  operandBatchingDims := []
  startIndicesBatchingDims := []
  startIndexMap := [0]
  indexVectorDim := 1
  sliceSizes := ![1, 78]
  wf := gather_S100000x78_S3200000x1_S3200000x78_1_0_n_n_0_1_178_wf
def scatter_S100000x78_S3200000x1_S3200000x78_1_0_0_1 : ScatterDims S100000x78 S3200000x1 S3200000x78 where
  updateWindowDims := [1]
  insertedWindowDims := [0]
  scatterDimsToOperandDims := [0]
  indexVectorDim := 1
  wf := scatter_S100000x78_S3200000x1_S3200000x78_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def scatter_S2000x32_S100000x1_S100000x32_1_0_0_1 : ScatterDims S2000x32 S100000x1 S100000x32 where
  updateWindowDims := [1]
  insertedWindowDims := [0]
  scatterDimsToOperandDims := [0]
  indexVectorDim := 1
  wf := scatter_S2000x32_S100000x1_S100000x32_1_0_0_1_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

class Facts : Prop extends Facts₀ where

variable [Facts]
-- ==== Proof.KernelRun.lean ====
/-
  The idealized kernel's run with its result named.

  @main is nine segments: three stretches of host operations, the first Chebyshev layer's tiled kernel, a stretch, the
  second layer's kernel, a stretch, the head's kernel, and the closing reshape.  Folding the segments from the launch
  memory gives the contents of every buffer at each boundary; every weakly fair execution terminates in a state whose
  unscoped buffers hold the last boundary's contents.  Read at the result buffer this names the result; read at the
  argument buffers it gives them back unchanged.
-/
import proofs.«102793_j35287451304635_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the nine argument arrays as launched. -/
theorem run : θ_run defs (onTc (τ := τ) (main (F := F))) ⟨m, fun _ => 0, ρ⟩ (fun r => ∀ c : Dev nD,
      r.2.mem ((c.tc : Thread nD τ).loc main_v117) = W9 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v117 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Named

end
-- ==== Proof.Dense.lean ====
/-
  The dense parts of the network, written once in the host's own operations, and each read at an index.

  A Chebyshev layer ends in `relu (((x0·w0 + x1·w1) + x2·w2) + b)`: three matrix products contracting the input
  features, added left to right, a bias row added to every node's row, and a clamp below at zero.  The head is
  `p·w + b` on the pooled graph features.  On the extended reals a matrix product read at (row, column) is the sum
  over the contracted axis of the products of the operands' entries; a bias row broadcast over the nodes reads its own
  column; the zero splat reads zero.  These are the three whole-array functions the tiled kernels are compared with.
-/
import proofs.«102793_j35287451304635_1_alg».proof.Proof.Gen.ReferenceIdeal
import Idealize.ShloMosaic.PureOps.Ideal.Laws
import Idealize.ShloMosaic.Lib.ValueIdx
import Idealize.ShloMosaic.Lib.Pipeline.Value

noncomputable section

namespace Cert.Dense

open Cert.ReferenceIdeal Cert.ReferenceIdeal.Gen Idealize.ShloMosaic Idealize.ShloMosaic.ValueIdx
open scoped BigOperators

/-- The host's matrix product of a [100000,78] array with a [78,32] array, read at row `r` and column `j`: the sum over
    the 78 contracted positions of the products, on the extended reals. -/
theorem dot78_apply (x : FVec Ideal S100000x78 .f32) (w : FVec Ideal S78x32 .f32) (r : Fin 100000) (j : Fin 32) :
    Host.dotGeneral (F := Ideal) dot_S100000x78_S78x32_S100000x32_1_0_0_1_n_n none x w (ix2 r j) = ∑ k : Fin 78, x (ix2 r k) * w (ix2 k j) := by
  simp only [Host.dotGeneral]
  rw [Ideal.dotGeneral_apply, ← Equiv.sum_comp (ValueIdx.contrEquiv1 dot_S100000x78_S78x32_S100000x32_1_0_0_1_n_n 78 rfl rfl).symm]
  refine Finset.sum_congr rfl fun k _ => ?_
  have hk := ValueIdx.contrEquiv1_symm_val dot_S100000x78_S78x32_S100000x32_1_0_0_1_n_n 78 rfl rfl k
  have el : dot_S100000x78_S78x32_S100000x32_1_0_0_1_n_n.lhsIdx (ix2 r j) ((ValueIdx.contrEquiv1 dot_S100000x78_S78x32_S100000x32_1_0_0_1_n_n 78 rfl rfl).symm k) = ix2 r k :=
    funext fun a => Fin.ext (by
      match a with
      | ⟨0, _⟩ =>
        show (dot_S100000x78_S78x32_S100000x32_1_0_0_1_n_n.lhsIdx (ix2 r j) _ 0).val = r.val
        unfold DotDims.lhsIdx
        rw [dif_neg (show ¬(0 : Fin S100000x78.rank) ∈ dot_S100000x78_S78x32_S100000x32_1_0_0_1_n_n.lhsBatch by decide),
          dif_pos (show (0 : Fin S100000x78.rank) ∈ dot_S100000x78_S78x32_S100000x32_1_0_0_1_n_n.lhsNonContracting by decide)]
        rfl
      | ⟨1, _⟩ => exact (dot_S100000x78_S78x32_S100000x32_1_0_0_1_n_n.lhsIdx_val_of_single rfl (ix2 r j) _).trans hk)
  have er : dot_S100000x78_S78x32_S100000x32_1_0_0_1_n_n.rhsIdx (ix2 r j) ((ValueIdx.contrEquiv1 dot_S100000x78_S78x32_S100000x32_1_0_0_1_n_n 78 rfl rfl).symm k) = ix2 k j :=
    funext fun a => Fin.ext (by
      match a with
      | ⟨0, _⟩ => exact (dot_S100000x78_S78x32_S100000x32_1_0_0_1_n_n.rhsIdx_val_of_single rfl (ix2 r j) _).trans hk
      | ⟨1, _⟩ =>
        show (dot_S100000x78_S78x32_S100000x32_1_0_0_1_n_n.rhsIdx (ix2 r j) _ 1).val = j.val
        unfold DotDims.rhsIdx
        rw [dif_neg (show ¬(1 : Fin S78x32.rank) ∈ dot_S100000x78_S78x32_S100000x32_1_0_0_1_n_n.rhsBatch by decide),
          dif_pos (show (1 : Fin S78x32.rank) ∈ dot_S100000x78_S78x32_S100000x32_1_0_0_1_n_n.rhsNonContracting by decide)]
        rfl)
  rw [el, er]

/-- The host's matrix product of a [100000,32] array with a [32,32] array, read at row `r` and column `j`: the sum over
    the 32 contracted positions of the products, on the extended reals. -/
theorem dot32_apply (x : FVec Ideal S100000x32 .f32) (w : FVec Ideal S32x32 .f32) (r : Fin 100000) (j : Fin 32) :
    Host.dotGeneral (F := Ideal) dot_S100000x32_S32x32_S100000x32_1_0_0_1_n_n none x w (ix2 r j) = ∑ k : Fin 32, x (ix2 r k) * w (ix2 k j) := by
  simp only [Host.dotGeneral]
  rw [Ideal.dotGeneral_apply, ← Equiv.sum_comp (ValueIdx.contrEquiv1 dot_S100000x32_S32x32_S100000x32_1_0_0_1_n_n 32 rfl rfl).symm]
  refine Finset.sum_congr rfl fun k _ => ?_
  have hk := ValueIdx.contrEquiv1_symm_val dot_S100000x32_S32x32_S100000x32_1_0_0_1_n_n 32 rfl rfl k
  have el : dot_S100000x32_S32x32_S100000x32_1_0_0_1_n_n.lhsIdx (ix2 r j) ((ValueIdx.contrEquiv1 dot_S100000x32_S32x32_S100000x32_1_0_0_1_n_n 32 rfl rfl).symm k) = ix2 r k :=
    funext fun a => Fin.ext (by
      match a with
      | ⟨0, _⟩ =>
        show (dot_S100000x32_S32x32_S100000x32_1_0_0_1_n_n.lhsIdx (ix2 r j) _ 0).val = r.val
        unfold DotDims.lhsIdx
        rw [dif_neg (show ¬(0 : Fin S100000x32.rank) ∈ dot_S100000x32_S32x32_S100000x32_1_0_0_1_n_n.lhsBatch by decide),
          dif_pos (show (0 : Fin S100000x32.rank) ∈ dot_S100000x32_S32x32_S100000x32_1_0_0_1_n_n.lhsNonContracting by decide)]
        rfl
      | ⟨1, _⟩ => exact (dot_S100000x32_S32x32_S100000x32_1_0_0_1_n_n.lhsIdx_val_of_single rfl (ix2 r j) _).trans hk)
  have er : dot_S100000x32_S32x32_S100000x32_1_0_0_1_n_n.rhsIdx (ix2 r j) ((ValueIdx.contrEquiv1 dot_S100000x32_S32x32_S100000x32_1_0_0_1_n_n 32 rfl rfl).symm k) = ix2 k j :=
    funext fun a => Fin.ext (by
      match a with
      | ⟨0, _⟩ => exact (dot_S100000x32_S32x32_S100000x32_1_0_0_1_n_n.rhsIdx_val_of_single rfl (ix2 r j) _).trans hk
      | ⟨1, _⟩ =>
        show (dot_S100000x32_S32x32_S100000x32_1_0_0_1_n_n.rhsIdx (ix2 r j) _ 1).val = j.val
        unfold DotDims.rhsIdx
        rw [dif_neg (show ¬(1 : Fin S32x32.rank) ∈ dot_S100000x32_S32x32_S100000x32_1_0_0_1_n_n.rhsBatch by decide),
          dif_pos (show (1 : Fin S32x32.rank) ∈ dot_S100000x32_S32x32_S100000x32_1_0_0_1_n_n.rhsNonContracting by decide)]
        rfl)
  rw [el, er]

/-- The host's matrix product of a [2000,32] array with a [32,1] array, read at row `r` and column `j`: the sum over
    the 32 contracted positions of the products, on the extended reals. -/
theorem dotHead_apply (x : FVec Ideal S2000x32 .f32) (w : FVec Ideal S32x1 .f32) (r : Fin 2000) (j : Fin 1) :
    Host.dotGeneral (F := Ideal) dot_S2000x32_S32x1_S2000x1_1_0_0_1_n_n none x w (ix2 r j) = ∑ k : Fin 32, x (ix2 r k) * w (ix2 k j) := by
  simp only [Host.dotGeneral]
  rw [Ideal.dotGeneral_apply, ← Equiv.sum_comp (ValueIdx.contrEquiv1 dot_S2000x32_S32x1_S2000x1_1_0_0_1_n_n 32 rfl rfl).symm]
  refine Finset.sum_congr rfl fun k _ => ?_
  have hk := ValueIdx.contrEquiv1_symm_val dot_S2000x32_S32x1_S2000x1_1_0_0_1_n_n 32 rfl rfl k
  have el : dot_S2000x32_S32x1_S2000x1_1_0_0_1_n_n.lhsIdx (ix2 r j) ((ValueIdx.contrEquiv1 dot_S2000x32_S32x1_S2000x1_1_0_0_1_n_n 32 rfl rfl).symm k) = ix2 r k :=
    funext fun a => Fin.ext (by
      match a with
      | ⟨0, _⟩ =>
        show (dot_S2000x32_S32x1_S2000x1_1_0_0_1_n_n.lhsIdx (ix2 r j) _ 0).val = r.val
        unfold DotDims.lhsIdx
        rw [dif_neg (show ¬(0 : Fin S2000x32.rank) ∈ dot_S2000x32_S32x1_S2000x1_1_0_0_1_n_n.lhsBatch by decide),
          dif_pos (show (0 : Fin S2000x32.rank) ∈ dot_S2000x32_S32x1_S2000x1_1_0_0_1_n_n.lhsNonContracting by decide)]
        rfl
      | ⟨1, _⟩ => exact (dot_S2000x32_S32x1_S2000x1_1_0_0_1_n_n.lhsIdx_val_of_single rfl (ix2 r j) _).trans hk)
  have er : dot_S2000x32_S32x1_S2000x1_1_0_0_1_n_n.rhsIdx (ix2 r j) ((ValueIdx.contrEquiv1 dot_S2000x32_S32x1_S2000x1_1_0_0_1_n_n 32 rfl rfl).symm k) = ix2 k j :=
    funext fun a => Fin.ext (by
      match a with
      | ⟨0, _⟩ => exact (dot_S2000x32_S32x1_S2000x1_1_0_0_1_n_n.rhsIdx_val_of_single rfl (ix2 r j) _).trans hk
      | ⟨1, _⟩ =>
        show (dot_S2000x32_S32x1_S2000x1_1_0_0_1_n_n.rhsIdx (ix2 r j) _ 1).val = j.val
        unfold DotDims.rhsIdx
        rw [dif_neg (show ¬(1 : Fin S32x1.rank) ∈ dot_S2000x32_S32x1_S2000x1_1_0_0_1_n_n.rhsBatch by decide),
          dif_pos (show (1 : Fin S32x1.rank) ∈ dot_S2000x32_S32x1_S2000x1_1_0_0_1_n_n.rhsNonContracting by decide)]
        rfl)
  rw [el, er]

/-- A bias row of 32 entries, made a [1,32] row and repeated over the 100000 nodes, reads its own column. -/
theorem biasRow_apply (b : FVec Ideal S32 .f32) (r : Fin 100000) (j : Fin 32) :
    broadcastInDim S100000x32 ![0, 1] bcast_S1x32_S100000x32_0_1 (broadcastInDim S1x32 ![1] bcast_S32_S1x32_1 b) (ix2 r j)
      = b (ix1 j) := by
  rw [broadcastInDim_apply ![0, 1] bcast_S1x32_S100000x32_0_1 _ (ix2 r j) (ix2 (0 : Fin 1) j) (fun a => by
      match a with
      | ⟨0, _⟩ => rfl
      | ⟨1, _⟩ => rfl),
    broadcastInDim_apply ![1] bcast_S32_S1x32_1 b (ix2 (0 : Fin 1) j) (ix1 j) (fun a => by
      match a with
      | ⟨0, _⟩ => rfl)]

/-- The zero scalar repeated over the [100000,32] array reads zero. -/
theorem zeros_apply (r : Fin 100000) (j : Fin 32) :
    broadcastInDim S100000x32 ![] bcast_S_S100000x32 (constant (F := Ideal) S_ .f32 0x00000000#32) (ix2 r j) = 0 := by
  rw [broadcastInDim_apply ![] bcast_S_S100000x32 _ (ix2 r j) ix0 (fun a => a.elim0), constant_apply, Ideal.ofBits_zero_f32]

/-- One Chebyshev layer's dense part on 78 input features, in the host's operations: the three products `x0·w0`,
    `x1·w1`, `x2·w2` added left to right, the bias row added to every node's row, and the result clamped below at zero. -/
def cheb78 (x0 x1 x2 : FVec Ideal S100000x78 .f32) (w0 w1 w2 : FVec Ideal S78x32 .f32) (b : FVec Ideal S32 .f32) :
    FVec Ideal S100000x32 .f32 :=
  maximumf
    (addf
      (addf
        (addf (Host.dotGeneral dot_S100000x78_S78x32_S100000x32_1_0_0_1_n_n none x0 w0) (Host.dotGeneral dot_S100000x78_S78x32_S100000x32_1_0_0_1_n_n none x1 w1))
        (Host.dotGeneral dot_S100000x78_S78x32_S100000x32_1_0_0_1_n_n none x2 w2))
      (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- Read at node `r` and output feature `j`: `max (((Σₖ x0[r,k]·w0[k,j] + Σₖ x1[r,k]·w1[k,j]) + Σₖ x2[r,k]·w2[k,j]) + b[j]) 0`. -/
theorem cheb78_apply (x0 x1 x2 : FVec Ideal S100000x78 .f32) (w0 w1 w2 : FVec Ideal S78x32 .f32) (b : FVec Ideal S32 .f32)
    (r : Fin 100000) (j : Fin 32) :
    cheb78 x0 x1 x2 w0 w1 w2 b (ix2 r j)
      = max ((((∑ k : Fin 78, x0 (ix2 r k) * w0 (ix2 k j)) + ∑ k : Fin 78, x1 (ix2 r k) * w1 (ix2 k j))
          + ∑ k : Fin 78, x2 (ix2 r k) * w2 (ix2 k j)) + b (ix1 j)) 0 := by
  unfold cheb78
  rw [maximumf_apply, addf_apply, addf_apply, addf_apply, dot78_apply, dot78_apply, dot78_apply, biasRow_apply, zeros_apply]

/-- One Chebyshev layer's dense part on 32 input features, in the host's operations: the three products `x0·w0`,
    `x1·w1`, `x2·w2` added left to right, the bias row added to every node's row, and the result clamped below at zero. -/
def cheb32 (x0 x1 x2 : FVec Ideal S100000x32 .f32) (w0 w1 w2 : FVec Ideal S32x32 .f32) (b : FVec Ideal S32 .f32) :
    FVec Ideal S100000x32 .f32 :=
  maximumf
    (addf
      (addf
        (addf (Host.dotGeneral dot_S100000x32_S32x32_S100000x32_1_0_0_1_n_n none x0 w0) (Host.dotGeneral dot_S100000x32_S32x32_S100000x32_1_0_0_1_n_n none x1 w1))
        (Host.dotGeneral dot_S100000x32_S32x32_S100000x32_1_0_0_1_n_n none x2 w2))
      (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- Read at node `r` and output feature `j`: `max (((Σₖ x0[r,k]·w0[k,j] + Σₖ x1[r,k]·w1[k,j]) + Σₖ x2[r,k]·w2[k,j]) + b[j]) 0`. -/
theorem cheb32_apply (x0 x1 x2 : FVec Ideal S100000x32 .f32) (w0 w1 w2 : FVec Ideal S32x32 .f32) (b : FVec Ideal S32 .f32)
    (r : Fin 100000) (j : Fin 32) :
    cheb32 x0 x1 x2 w0 w1 w2 b (ix2 r j)
      = max ((((∑ k : Fin 32, x0 (ix2 r k) * w0 (ix2 k j)) + ∑ k : Fin 32, x1 (ix2 r k) * w1 (ix2 k j))
          + ∑ k : Fin 32, x2 (ix2 r k) * w2 (ix2 k j)) + b (ix1 j)) 0 := by
  unfold cheb32
  rw [maximumf_apply, addf_apply, addf_apply, addf_apply, dot32_apply, dot32_apply, dot32_apply, biasRow_apply, zeros_apply]

/-- The head on the pooled features, in the host's operations: the product with the [32,1] weight column plus the one
    bias entry on every graph's row. -/
def head (p : FVec Ideal S2000x32 .f32) (w : FVec Ideal S32x1 .f32) (b : FVec Ideal S1 .f32) : FVec Ideal S2000x1 .f32 :=
  addf (Host.dotGeneral dot_S2000x32_S32x1_S2000x1_1_0_0_1_n_n none p w)
    (broadcastInDim S2000x1 ![0, 1] bcast_S1x1_S2000x1_0_1 (broadcastInDim S1x1 ![1] bcast_S1_S1x1_1 b))

/-- Read at graph `g` (and the one output column `u`): `Σₖ p[g,k]·w[k,u] + b[u]`. -/
theorem head_apply (p : FVec Ideal S2000x32 .f32) (w : FVec Ideal S32x1 .f32) (b : FVec Ideal S1 .f32)
    (g : Fin 2000) (u : Fin 1) :
    head p w b (ix2 g u) = (∑ k : Fin 32, p (ix2 g k) * w (ix2 k u)) + b (ix1 u) := by
  have hu : u.val = 0 := by have := u.isLt; omega
  unfold head
  rw [addf_apply, dotHead_apply,
    broadcastInDim_apply ![0, 1] bcast_S1x1_S2000x1_0_1 _ (ix2 g u) (ix2 (0 : Fin 1) u) (fun a => by
      match a with
      | ⟨0, _⟩ => rfl
      | ⟨1, _⟩ => exact hu.trans (if_pos rfl).symm),
    broadcastInDim_apply ![1] bcast_S1_S1x1_1 b (ix2 (0 : Fin 1) u) (ix1 u) (fun a => by
      match a with
      | ⟨0, _⟩ => exact hu.trans (if_pos rfl).symm)]

end Cert.Dense

end
-- ==== Proof.Layer1.lean ====
/-
  The first Chebyshev layer's tiled kernel, read as one whole-array function.

  The kernel walks the 100000 nodes in 20 row blocks of 5000. At each block it multiplies the block's rows of the three
  node-feature arrays by the three [78,32] weight arrays, adds the three products left to right, adds the bias row to
  every row, clamps below at zero, and writes the [5000,32] result back as the same row block of the output. On the
  extended reals the roundings to bf16 on the way into each product are the identity, and a product read at (row,
  column) is the sum over the 78 contracted positions of the operands' products. Row `p` of block `t` is row
  `5000·t + p` of the array, and the 20 blocks tile the output, so the output array ends holding the dense layer's
  function of the whole arrays.
-/
import proofs.«102793_j35287451304635_1_alg».proof.Proof.Gen.KernelIdeal.Frame
import proofs.«102793_j35287451304635_1_alg».proof.Proof.Dense
import Idealize.ShloMosaic.Lib.Pipeline.Value
import Idealize.ShloMosaic.Lib.ValueIdx
import Idealize.ShloMosaic.PureOps.Ideal.Laws

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The kernel's matrix product of a [5000,78] block with a [78,32] array into the zero accumulator, read at row `p`
    and column `q`: the sum over the 78 contracted positions of the products, on the extended reals. -/
theorem mm78_apply {φ₁ φ₂ : FTy} (x : FVec Ideal S5000x78 φ₁) (w : FVec Ideal S78x32 φ₂) (p : Fin 5000) (q : Fin 32) :
    matmul dot_S5000x78_S78x32_S5000x32_1_0_0_1_n_n none x w (constant (F := Ideal) S5000x32 .f32 0x00000000#32) (ix2 p q)
      = ∑ k : Fin 78, x (ix2 p k) * w (ix2 k q) := by
  simp only [matmul]
  rw [Ideal.matmul_constant_zero_apply, ← Equiv.sum_comp (ValueIdx.contrEquiv1 dot_S5000x78_S78x32_S5000x32_1_0_0_1_n_n 78 rfl rfl).symm]
  refine Finset.sum_congr rfl fun k _ => ?_
  have hk := ValueIdx.contrEquiv1_symm_val dot_S5000x78_S78x32_S5000x32_1_0_0_1_n_n 78 rfl rfl k
  have el : dot_S5000x78_S78x32_S5000x32_1_0_0_1_n_n.lhsIdx (ix2 p q) ((ValueIdx.contrEquiv1 dot_S5000x78_S78x32_S5000x32_1_0_0_1_n_n 78 rfl rfl).symm k) = ix2 p k :=
    funext fun a => Fin.ext (by
      match a with
      | ⟨0, _⟩ =>
        show (dot_S5000x78_S78x32_S5000x32_1_0_0_1_n_n.lhsIdx (ix2 p q) _ 0).val = p.val
        unfold DotDims.lhsIdx
        rw [dif_neg (show ¬(0 : Fin S5000x78.rank) ∈ dot_S5000x78_S78x32_S5000x32_1_0_0_1_n_n.lhsBatch by decide),
          dif_pos (show (0 : Fin S5000x78.rank) ∈ dot_S5000x78_S78x32_S5000x32_1_0_0_1_n_n.lhsNonContracting by decide)]
        rfl
      | ⟨1, _⟩ => exact (dot_S5000x78_S78x32_S5000x32_1_0_0_1_n_n.lhsIdx_val_of_single rfl (ix2 p q) _).trans hk)
  have er : dot_S5000x78_S78x32_S5000x32_1_0_0_1_n_n.rhsIdx (ix2 p q) ((ValueIdx.contrEquiv1 dot_S5000x78_S78x32_S5000x32_1_0_0_1_n_n 78 rfl rfl).symm k) = ix2 k q :=
    funext fun a => Fin.ext (by
      match a with
      | ⟨0, _⟩ => exact (dot_S5000x78_S78x32_S5000x32_1_0_0_1_n_n.rhsIdx_val_of_single rfl (ix2 p q) _).trans hk
      | ⟨1, _⟩ =>
        show (dot_S5000x78_S78x32_S5000x32_1_0_0_1_n_n.rhsIdx (ix2 p q) _ 1).val = q.val
        unfold DotDims.rhsIdx
        rw [dif_neg (show ¬(1 : Fin S78x32.rank) ∈ dot_S5000x78_S78x32_S5000x32_1_0_0_1_n_n.rhsBatch by decide),
          dif_pos (show (1 : Fin S78x32.rank) ∈ dot_S5000x78_S78x32_S5000x32_1_0_0_1_n_n.rhsNonContracting by decide)]
        rfl)
  rw [el, er]

/-- The bias row of 32 entries, viewed as a [1,32] row and repeated over the block's 5000 rows, reads its own column. -/
theorem bias_apply (b : Vec Ideal S32 .f32) (p : Fin 5000) (q : Fin 32) :
    broadcastTo S5000x32 (shapeCast S1x32 b shapeCasts_S32_S1x32) broadcasts_S1x32_S5000x32 (ix2 p q) = b (ix1 q) := by
  rw [broadcastTo_apply _ broadcasts_S1x32_S5000x32 (ix2 p q) (ix2 (0 : Fin 1) q) (fun a => by
      match a with
      | ⟨0, _⟩ => rfl
      | ⟨1, _⟩ => rfl),
    shapeCast_apply b shapeCasts_S32_S1x32 (ix2 (0 : Fin 1) q) (ix1 q) (by
      rw [Shape.rowMajor_val_one, Shape.rowMajor_val_two]; show q.val = (0 : Fin 1).val * 32 + q.val; simp)]

/-- The body's stored value at row `p` and column `q` of the block: the three products added left to right, the
    bias entry of the column added, the result clamped below at zero. The roundings to bf16 on the way into each
    product are the identity on the extended reals. -/
theorem pay_apply (x0 x1 x2 : Vec Ideal S5000x78 .f32) (w0 w1 w2 : Vec Ideal S78x32 .f32) (b : Vec Ideal S32 .f32)
    (p : Fin 5000) (q : Fin 32) :
    k0_pay1 (F := Ideal) x0 w0 x1 w1 x2 w2 b (ix2 p q)
      = max ((((∑ k : Fin 78, x0 (ix2 p k) * w0 (ix2 k q)) + ∑ k : Fin 78, x1 (ix2 p k) * w1 (ix2 k q))
          + ∑ k : Fin 78, x2 (ix2 p k) * w2 (ix2 k q)) + b (ix1 q)) 0 := by
  unfold k0_pay1
  simp only [shapeCast_self]
  rw [maximumf_apply, addf_apply, addf_apply, addf_apply, mm78_apply, mm78_apply, mm78_apply, bias_apply,
    broadcast_apply]
  simp only [truncf_apply]
  show max _ (Ideal.ofBits .f32 0x00000000#32) = _
  rw [Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The index maps over the 20 grid points: the three row-blocked inputs and the output sit at block row `t`, block
    column 0; the weights and the bias are whole arrays at block index 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `p` of point `t`'s block of the first input is row `5000·t + p` of the array. -/
theorem read_x0 (c : Dev nD) (t : Fin cfg0.N) (p : Fin 5000) (k : Fin 78) (r : Fin 100000) (hr : r.val = 5000 * t.val + p.val) :
    (iblk0 V c 0 t : Vec Ideal S5000x78 .f32) (ix2 p k) = (V c main_arg0 : S100000x78.Idx → Elt Ideal .f32) (ix2 r k) := by
  obtain ⟨e0, e1, -⟩ := idx_facts t
  unfold iblk0
  rw [View.read_apply]
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 78 + 1 * k.val = k.val; rw [e1]; omega

/-- Row `p` of point `t`'s block of the second input is row `5000·t + p` of the array. -/
theorem read_x1 (c : Dev nD) (t : Fin cfg0.N) (p : Fin 5000) (k : Fin 78) (r : Fin 100000) (hr : r.val = 5000 * t.val + p.val) :
    (iblk0 V c 1 t : Vec Ideal S5000x78 .f32) (ix2 p k) = (V c main_v44 : S100000x78.Idx → Elt Ideal .f32) (ix2 r k) := by
  obtain ⟨-, -, e0, e1, -⟩ := idx_facts t
  unfold iblk0
  rw [View.read_apply]
  show V c main_v44 (((cfg0.win 1).blk t).view.emb (ix2 p k)) = V c main_v44 (ix2 r k)
  refine congrArg _ (funext fun a => Fin.ext ?_)
  match a with
  | ⟨0, _⟩ => show win0_1.index t (0 : Fin 2) * 5000 + 1 * p.val = r.val; rw [e0, hr]; omega
  | ⟨1, _⟩ => show win0_1.index t (1 : Fin 2) * 78 + 1 * k.val = k.val; rw [e1]; omega

/-- Row `p` of point `t`'s block of the third input is row `5000·t + p` of the array. -/
theorem read_x2 (c : Dev nD) (t : Fin cfg0.N) (p : Fin 5000) (k : Fin 78) (r : Fin 100000) (hr : r.val = 5000 * t.val + p.val) :
    (iblk0 V c 2 t : Vec Ideal S5000x78 .f32) (ix2 p k) = (V c main_v60 : S100000x78.Idx → Elt Ideal .f32) (ix2 r k) := by
  obtain ⟨-, -, -, -, e0, e1, -⟩ := idx_facts t
  unfold iblk0
  rw [View.read_apply]
  show V c main_v60 (((cfg0.win 2).blk t).view.emb (ix2 p k)) = V c main_v60 (ix2 r k)
  refine congrArg _ (funext fun a => Fin.ext ?_)
  match a with
  | ⟨0, _⟩ => show win0_2.index t (0 : Fin 2) * 5000 + 1 * p.val = r.val; rw [e0, hr]; omega
  | ⟨1, _⟩ => show win0_2.index t (1 : Fin 2) * 78 + 1 * k.val = k.val; rw [e1]; omega

/-- The first weight array's one block is the whole array, at every point. -/
theorem read_w0 (c : Dev nD) (t : Fin cfg0.N) (k : Fin 78) (q : Fin 32) :
    (iblk0 V c 3 t : Vec Ideal S78x32 .f32) (ix2 k q) = (V c main_v62 : S78x32.Idx → Elt Ideal .f32) (ix2 k q) := by
  obtain ⟨-, -, -, -, -, -, e0, e1, -⟩ := idx_facts t
  unfold iblk0
  rw [View.read_apply]
  show V c main_v62 (((cfg0.win 3).blk t).view.emb (ix2 k q)) = V c main_v62 (ix2 k q)
  refine congrArg _ (funext fun a => Fin.ext ?_)
  match a with
  | ⟨0, _⟩ => show win0_3.index t (0 : Fin 2) * 78 + 1 * k.val = k.val; rw [e0]; omega
  | ⟨1, _⟩ => show win0_3.index t (1 : Fin 2) * 32 + 1 * q.val = q.val; rw [e1]; omega

/-- The second weight array's one block is the whole array, at every point. -/
theorem read_w1 (c : Dev nD) (t : Fin cfg0.N) (k : Fin 78) (q : Fin 32) :
    (iblk0 V c 4 t : Vec Ideal S78x32 .f32) (ix2 k q) = (V c main_v64 : S78x32.Idx → Elt Ideal .f32) (ix2 k q) := by
  obtain ⟨-, -, -, -, -, -, -, -, e0, e1, -⟩ := idx_facts t
  unfold iblk0
  rw [View.read_apply]
  show V c main_v64 (((cfg0.win 4).blk t).view.emb (ix2 k q)) = V c main_v64 (ix2 k q)
  refine congrArg _ (funext fun a => Fin.ext ?_)
  match a with
  | ⟨0, _⟩ => show win0_4.index t (0 : Fin 2) * 78 + 1 * k.val = k.val; rw [e0]; omega
  | ⟨1, _⟩ => show win0_4.index t (1 : Fin 2) * 32 + 1 * q.val = q.val; rw [e1]; omega

/-- The third weight array's one block is the whole array, at every point. -/
theorem read_w2 (c : Dev nD) (t : Fin cfg0.N) (k : Fin 78) (q : Fin 32) :
    (iblk0 V c 5 t : Vec Ideal S78x32 .f32) (ix2 k q) = (V c main_v66 : S78x32.Idx → Elt Ideal .f32) (ix2 k q) := by
  obtain ⟨-, -, -, -, -, -, -, -, -, -, e0, e1, -⟩ := idx_facts t
  unfold iblk0
  rw [View.read_apply]
  show V c main_v66 (((cfg0.win 5).blk t).view.emb (ix2 k q)) = V c main_v66 (ix2 k q)
  refine congrArg _ (funext fun a => Fin.ext ?_)
  match a with
  | ⟨0, _⟩ => show win0_5.index t (0 : Fin 2) * 78 + 1 * k.val = k.val; rw [e0]; omega
  | ⟨1, _⟩ => show win0_5.index t (1 : Fin 2) * 32 + 1 * q.val = q.val; rw [e1]; omega

/-- The bias's one block is the whole array, at every point. -/
theorem read_b (c : Dev nD) (t : Fin cfg0.N) (q : Fin 32) :
    (iblk0 V c 6 t : Vec Ideal S32 .f32) (ix1 q) = (V c main_arg2 : S32.Idx → Elt Ideal .f32) (ix1 q) := by
  obtain ⟨-, -, -, -, -, -, -, -, -, -, -, -, e0, -⟩ := idx_facts t
  unfold iblk0
  rw [View.read_apply]
  show V c main_arg2 (((cfg0.win 6).blk t).view.emb (ix1 q)) = V c main_arg2 (ix1 q)
  refine congrArg _ (funext fun a => Fin.ext ?_)
  match a with
  | ⟨0, _⟩ => show win0_6.index t (0 : Fin 1) * 32 + 1 * q.val = q.val; rw [e0]; omega

/-- Row `p`, column `q` of point `t`'s block of the output sits at row `5000·t + p`, column `q` of the array. -/
theorem emb_out (t : Fin cfg0.N) (p : Fin 5000) (q : Fin 32) (r : Fin 100000) (hr : r.val = 5000 * t.val + p.val) :
    ((cfg0.win 7).blk t).view.emb (ix2 p q) = (ix2 r q : S100000x32.Idx) := by
  obtain ⟨-, -, -, -, -, -, -, -, -, -, -, -, -, e0, e1⟩ := idx_facts t
  refine funext fun a => Fin.ext ?_
  match a with
  | ⟨0, _⟩ => show win0_7.index t (0 : Fin 2) * 5000 + 1 * p.val = r.val; rw [e0, hr]; omega
  | ⟨1, _⟩ => show win0_7.index t (1 : Fin 2) * 32 + 1 * q.val = q.val; rw [e1]; omega

/-- WHAT POINT `t` WRITES BACK is block `t` of any whole-array function `G` that reads, at node `r` and output
    feature `j`, the clamped sum of the three products and the bias entry of the arrays the region finds
    (`X0 X1 X2` the three node-feature arrays, `W0 W1 W2` the weights, `B` the bias). -/
theorem flushed_of (c : Dev nD) (X0 X1 X2 : S100000x78.Idx → Elt Ideal .f32) (W0 W1 W2 : S78x32.Idx → Elt Ideal .f32)
    (B : S32.Idx → Elt Ideal .f32)
    (h0 : V c main_arg0 = X0) (h1 : V c main_v44 = X1) (h2 : V c main_v60 = X2)
    (g0 : V c main_v62 = W0) (g1 : V c main_v64 = W1) (g2 : V c main_v66 = W2) (hb : V c main_arg2 = B)
    (G : S100000x32.Idx → Elt Ideal .f32)
    (hG : ∀ (r : Fin 100000) (j : Fin 32), G (ix2 r j)
      = max ((((∑ k : Fin 78, X0 (ix2 r k) * W0 (ix2 k j)) + ∑ k : Fin 78, X1 (ix2 r k) * W1 (ix2 k j))
          + ∑ k : Fin 78, X2 (ix2 r k) * W2 (ix2 k j)) + B (ix1 j)) 0)
    (t : Fin cfg0.N) :
    (dat0 V c).flushed 7 t = ((cfg0.win 7).blk t).view.read (Elt Ideal) G := by
  subst h0 h1 h2 g0 g1 g2 hb
  have hN : grid0.N = 20 := N_0
  show (cfg0.win 7).cut (grid0.coords t) ((dat0 V c).after 7 t) = _
  rw [after0_7]
  unfold out0_7
  rw [View.canon_unit_zero hz]
  simp only [View.ld_unit_zero (S := S5000x78) hz, View.ld_unit_zero (S := S78x32) hz, View.ld_unit_zero (S := S32) hz1]
  funext y
  obtain ⟨p, q, rfl⟩ : ∃ (p : Fin 5000) (q : Fin 32), y = ix2 p q := ⟨y 0, y 1, eq_ix2 y⟩
  have ht : t.val < 20 := hN ▸ t.isLt
  have hr : 5000 * t.val + p.val < 100000 := by have := p.isLt; omega
  show k0_pay1 (F := Ideal) (iblk0 V c 0 t) (iblk0 V c 3 t) (iblk0 V c 1 t) (iblk0 V c 4 t) (iblk0 V c 2 t) (iblk0 V c 5 t) (iblk0 V c 6 t) (ix2 p q)
    = G (((cfg0.win 7).blk t).view.emb (ix2 p q))
  rw [emb_out t p q ⟨5000 * t.val + p.val, hr⟩ rfl, hG, pay_apply]
  simp only [read_x0 V c t p _ ⟨5000 * t.val + p.val, hr⟩ rfl, read_x1 V c t p _ ⟨5000 * t.val + p.val, hr⟩ rfl,
    read_x2 V c t p _ ⟨5000 * t.val + p.val, hr⟩ rfl, read_w0 V c t, read_w1 V c t, read_w2 V c t, read_b V c t]

/-- An index of the output array is in point `t`'s block iff each coordinate is in the block's range on its axis. -/
theorem mem_blk (t : Fin cfg0.N) (i : S100000x32.Idx) :
    i ∈ ((cfg0.win 7).blk t).view.set ↔ ∀ a : Fin 2, win0_7.index t a * S5000x32.size a ≤ (i a).val ∧ (i a).val < win0_7.index t a * S5000x32.size a + S5000x32.size a := by
  show i ∈ ((View.whole main_v67).slice (win0_7.rect t)).set ↔ _
  rw [View.set_slice_whole, Rect.mem_set_unit]
  exact Iff.rfl

/-- The blocks tile the output: row `r` is in the block of point `r / 5000`. -/
theorem cover (i : S100000x32.Idx) :
    ∃ t : Fin cfg0.N, (cfg0.win 7).flush t = true ∧ i ∈ ((cfg0.win 7).blk t).view.set := by
  have hN : grid0.N = 20 := N_0
  have hi0 : (i 0).val < 100000 := (i 0).isLt
  have hi1 : (i 1).val < 32 := (i 1).isLt
  have hlt : (i 0).val / 5000 < grid0.N := by rw [hN]; omega
  refine ⟨⟨(i 0).val / 5000, hlt⟩, flush0_7 _, ?_⟩
  obtain ⟨-, -, -, -, -, -, -, -, -, -, -, -, -, e0, e1⟩ := idx_facts ⟨(i 0).val / 5000, hlt⟩
  rw [mem_blk]
  intro a
  match a with
  | ⟨0, _⟩ =>
    show win0_7.index ⟨(i 0).val / 5000, hlt⟩ (0 : Fin 2) * 5000 ≤ (i 0).val ∧ (i 0).val < win0_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, hlt⟩ (1 : Fin 2) * 32 ≤ (i 1).val ∧ (i 1).val < win0_7.index ⟨(i 0).val / 5000, hlt⟩ (1 : Fin 2) * 32 + 32
    rw [e1]; omega

/-- So the output array ends holding any such `G`. -/
theorem arr_of (c : Dev nD) (X0 X1 X2 : S100000x78.Idx → Elt Ideal .f32) (W0 W1 W2 : S78x32.Idx → Elt Ideal .f32)
    (B : S32.Idx → Elt Ideal .f32)
    (h0 : V c main_arg0 = X0) (h1 : V c main_v44 = X1) (h2 : V c main_v60 = X2)
    (g0 : V c main_v62 = W0) (g1 : V c main_v64 = W1) (g2 : V c main_v66 = W2) (hb : V c main_arg2 = B)
    (G : S100000x32.Idx → Elt Ideal .f32)
    (hG : ∀ (r : Fin 100000) (j : Fin 32), G (ix2 r j)
      = max ((((∑ k : Fin 78, X0 (ix2 r k) * W0 (ix2 k j)) + ∑ k : Fin 78, X1 (ix2 r k) * W1 (ix2 k j))
          + ∑ k : Fin 78, X2 (ix2 r k) * W2 (ix2 k j)) + B (ix1 j)) 0) :
    (dat0 V c).arrAt 7 cfg0.N = G :=
  (dat0 V c).arrAt_eq_of_cover 7 G (fun t _ => flushed_of V c X0 X1 X2 W0 W1 W2 B h0 h1 h2 g0 g1 g2 hb G hG t) cover

/-- THE OUTPUT ARRAY of the first layer's kernel, for any contents `V` the region is entered with, is the dense layer
    on 78 input features of the seven arrays it reads. -/
theorem arr_eq (V : (c : Dev nD) → (b : Ref sig .tc) → Buf (Elt Ideal) ((c : Thread nD τ).loc b)) (c : Dev nD) :
    (Cert.KernelIdeal.Gen.dat0 (F := Ideal) V c).arrAt 7 cfg0.N
      = Cert.Dense.cheb78 (V c main_arg0) (V c main_v44) (V c main_v60) (V c main_v62) (V c main_v64) (V c main_v66) (V c main_arg2) :=
  arr_of V c (V c main_arg0) (V c main_v44) (V c main_v60) (V c main_v62) (V c main_v64) (V c main_v66) (V c main_arg2)
    rfl rfl rfl rfl rfl rfl rfl _
    (fun r j => Cert.Dense.cheb78_apply (V c main_arg0) (V c main_v44) (V c main_v60) (V c main_v62) (V c main_v64) (V c main_v66) (V c main_arg2) r j)

end Cert.KernelIdeal.Layer1

end
-- ==== Proof.Layer2.lean ====
/-
  The second Chebyshev layer's tiled kernel, read as one whole-array function.

  The kernel walks the 100000 nodes in 20 row blocks of 5000. At each block it multiplies the block's rows of the three
  node-feature arrays by the three [32,32] weight arrays, adds the three products left to right, adds the bias row to
  every row, clamps below at zero, and writes the [5000,32] result back as the same row block of the output. On the
  extended reals the roundings to bf16 on the way into each product are the identity, and a product read at (row,
  column) is the sum over the 32 contracted positions of the operands' products. Row `p` of block `t` is row
  `5000·t + p` of the array, and the 20 blocks tile the output, so the output array ends holding the dense layer's
  function of the whole arrays.
-/
import proofs.«102793_j35287451304635_1_alg».proof.Proof.Gen.KernelIdeal.Frame
import proofs.«102793_j35287451304635_1_alg».proof.Proof.Dense
import Idealize.ShloMosaic.Lib.Pipeline.Value
import Idealize.ShloMosaic.Lib.ValueIdx
import Idealize.ShloMosaic.PureOps.Ideal.Laws

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The kernel's matrix product of a [5000,32] block with a [32,32] array into the zero accumulator, read at row `p`
    and column `q`: the sum over the 32 contracted positions of the products, on the extended reals. -/
theorem mm32_apply {φ₁ φ₂ : FTy} (x : FVec Ideal S5000x32 φ₁) (w : FVec Ideal S32x32 φ₂) (p : Fin 5000) (q : Fin 32) :
    matmul dot_S5000x32_S32x32_S5000x32_1_0_0_1_n_n none x w (constant (F := Ideal) S5000x32 .f32 0x00000000#32) (ix2 p q)
      = ∑ k : Fin 32, x (ix2 p k) * w (ix2 k q) := by
  simp only [matmul]
  rw [Ideal.matmul_constant_zero_apply, ← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ix2 p q) ((ValueIdx.contrEquiv1 dot_S5000x32_S32x32_S5000x32_1_0_0_1_n_n 32 rfl rfl).symm k) = ix2 p k :=
    funext fun a => Fin.ext (by
      match a with
      | ⟨0, _⟩ =>
        show (dot_S5000x32_S32x32_S5000x32_1_0_0_1_n_n.lhsIdx (ix2 p q) _ 0).val = p.val
        unfold DotDims.lhsIdx
        rw [dif_neg (show ¬(0 : Fin S5000x32.rank) ∈ dot_S5000x32_S32x32_S5000x32_1_0_0_1_n_n.lhsBatch by decide),
          dif_pos (show (0 : Fin S5000x32.rank) ∈ dot_S5000x32_S32x32_S5000x32_1_0_0_1_n_n.lhsNonContracting by decide)]
        rfl
      | ⟨1, _⟩ => exact (dot_S5000x32_S32x32_S5000x32_1_0_0_1_n_n.lhsIdx_val_of_single rfl (ix2 p q) _).trans hk)
  have er : dot_S5000x32_S32x32_S5000x32_1_0_0_1_n_n.rhsIdx (ix2 p q) ((ValueIdx.contrEquiv1 dot_S5000x32_S32x32_S5000x32_1_0_0_1_n_n 32 rfl rfl).symm k) = ix2 k q :=
    funext fun a => Fin.ext (by
      match a with
      | ⟨0, _⟩ => exact (dot_S5000x32_S32x32_S5000x32_1_0_0_1_n_n.rhsIdx_val_of_single rfl (ix2 p q) _).trans hk
      | ⟨1, _⟩ =>
        show (dot_S5000x32_S32x32_S5000x32_1_0_0_1_n_n.rhsIdx (ix2 p q) _ 1).val = q.val
        unfold DotDims.rhsIdx
        rw [dif_neg (show ¬(1 : Fin S32x32.rank) ∈ dot_S5000x32_S32x32_S5000x32_1_0_0_1_n_n.rhsBatch by decide),
          dif_pos (show (1 : Fin S32x32.rank) ∈ dot_S5000x32_S32x32_S5000x32_1_0_0_1_n_n.rhsNonContracting by decide)]
        rfl)
  rw [el, er]

/-- The bias row of 32 entries, viewed as a [1,32] row and repeated over the block's 5000 rows, reads its own column. -/
theorem bias_apply (b : Vec Ideal S32 .f32) (p : Fin 5000) (q : Fin 32) :
    broadcastTo S5000x32 (shapeCast S1x32 b shapeCasts_S32_S1x32) broadcasts_S1x32_S5000x32 (ix2 p q) = b (ix1 q) := by
  rw [broadcastTo_apply _ broadcasts_S1x32_S5000x32 (ix2 p q) (ix2 (0 : Fin 1) q) (fun a => by
      match a with
      | ⟨0, _⟩ => rfl
      | ⟨1, _⟩ => rfl),
    shapeCast_apply b shapeCasts_S32_S1x32 (ix2 (0 : Fin 1) q) (ix1 q) (by
      rw [Shape.rowMajor_val_one, Shape.rowMajor_val_two]; show q.val = (0 : Fin 1).val * 32 + q.val; simp)]

/-- The body's stored value at row `p` and column `q` of the block: the three products added left to right, the
    bias entry of the column added, the result clamped below at zero. The roundings to bf16 on the way into each
    product are the identity on the extended reals. -/
theorem pay_apply (x0 x1 x2 : Vec Ideal S5000x32 .f32) (w0 w1 w2 : Vec Ideal S32x32 .f32) (b : Vec Ideal S32 .f32)
    (p : Fin 5000) (q : Fin 32) :
    k1_pay1 (F := Ideal) x0 w0 x1 w1 x2 w2 b (ix2 p q)
      = max ((((∑ k : Fin 32, x0 (ix2 p k) * w0 (ix2 k q)) + ∑ k : Fin 32, x1 (ix2 p k) * w1 (ix2 k q))
          + ∑ k : Fin 32, x2 (ix2 p k) * w2 (ix2 k q)) + b (ix1 q)) 0 := by
  unfold k1_pay1
  simp only [shapeCast_self]
  rw [maximumf_apply, addf_apply, addf_apply, addf_apply, mm32_apply, mm32_apply, mm32_apply, bias_apply,
    broadcast_apply]
  simp only [truncf_apply]
  show max _ (Ideal.ofBits .f32 0x00000000#32) = _
  rw [Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The index maps over the 20 grid points: the three row-blocked inputs and the output sit at block row `t`, block
    column 0; the weights and the bias are whole arrays at block index 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row `p` of point `t`'s block of the first input is row `5000·t + p` of the array. -/
theorem read_x0 (c : Dev nD) (t : Fin cfg1.N) (p : Fin 5000) (k : Fin 32) (r : Fin 100000) (hr : r.val = 5000 * t.val + p.val) :
    (iblk1 V c 0 t : Vec Ideal S5000x32 .f32) (ix2 p k) = (V c main_v67 : S100000x32.Idx → Elt Ideal .f32) (ix2 r k) := by
  obtain ⟨e0, e1, -⟩ := idx_facts t
  unfold iblk1
  rw [View.read_apply]
  show V c main_v67 (((cfg1.win 0).blk t).view.emb (ix2 p k)) = V c main_v67 (ix2 r k)
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 32 + 1 * k.val = k.val; rw [e1]; omega

/-- Row `p` of point `t`'s block of the second input is row `5000·t + p` of the array. -/
theorem read_x1 (c : Dev nD) (t : Fin cfg1.N) (p : Fin 5000) (k : Fin 32) (r : Fin 100000) (hr : r.val = 5000 * t.val + p.val) :
    (iblk1 V c 1 t : Vec Ideal S5000x32 .f32) (ix2 p k) = (V c main_v80 : S100000x32.Idx → Elt Ideal .f32) (ix2 r k) := by
  obtain ⟨-, -, e0, e1, -⟩ := idx_facts t
  unfold iblk1
  rw [View.read_apply]
  show V c main_v80 (((cfg1.win 1).blk t).view.emb (ix2 p k)) = V c main_v80 (ix2 r k)
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 32 + 1 * k.val = k.val; rw [e1]; omega

/-- Row `p` of point `t`'s block of the third input is row `5000·t + p` of the array. -/
theorem read_x2 (c : Dev nD) (t : Fin cfg1.N) (p : Fin 5000) (k : Fin 32) (r : Fin 100000) (hr : r.val = 5000 * t.val + p.val) :
    (iblk1 V c 2 t : Vec Ideal S5000x32 .f32) (ix2 p k) = (V c main_v96 : S100000x32.Idx → Elt Ideal .f32) (ix2 r k) := by
  obtain ⟨-, -, -, -, e0, e1, -⟩ := idx_facts t
  unfold iblk1
  rw [View.read_apply]
  show V c main_v96 (((cfg1.win 2).blk t).view.emb (ix2 p k)) = V c main_v96 (ix2 r k)
  refine congrArg _ (funext fun a => Fin.ext ?_)
  match a with
  | ⟨0, _⟩ => show win1_2.index t (0 : Fin 2) * 5000 + 1 * p.val = r.val; rw [e0, hr]; omega
  | ⟨1, _⟩ => show win1_2.index t (1 : Fin 2) * 32 + 1 * k.val = k.val; rw [e1]; omega

/-- The first weight array's one block is the whole array, at every point. -/
theorem read_w0 (c : Dev nD) (t : Fin cfg1.N) (k : Fin 32) (q : Fin 32) :
    (iblk1 V c 3 t : Vec Ideal S32x32 .f32) (ix2 k q) = (V c main_v98 : S32x32.Idx → Elt Ideal .f32) (ix2 k q) := by
  obtain ⟨-, -, -, -, -, -, e0, e1, -⟩ := idx_facts t
  unfold iblk1
  rw [View.read_apply]
  show V c main_v98 (((cfg1.win 3).blk t).view.emb (ix2 k q)) = V c main_v98 (ix2 k q)
  refine congrArg _ (funext fun a => Fin.ext ?_)
  match a with
  | ⟨0, _⟩ => show win1_3.index t (0 : Fin 2) * 32 + 1 * k.val = k.val; rw [e0]; omega
  | ⟨1, _⟩ => show win1_3.index t (1 : Fin 2) * 32 + 1 * q.val = q.val; rw [e1]; omega

/-- The second weight array's one block is the whole array, at every point. -/
theorem read_w1 (c : Dev nD) (t : Fin cfg1.N) (k : Fin 32) (q : Fin 32) :
    (iblk1 V c 4 t : Vec Ideal S32x32 .f32) (ix2 k q) = (V c main_v100 : S32x32.Idx → Elt Ideal .f32) (ix2 k q) := by
  obtain ⟨-, -, -, -, -, -, -, -, e0, e1, -⟩ := idx_facts t
  unfold iblk1
  rw [View.read_apply]
  show V c main_v100 (((cfg1.win 4).blk t).view.emb (ix2 k q)) = V c main_v100 (ix2 k q)
  refine congrArg _ (funext fun a => Fin.ext ?_)
  match a with
  | ⟨0, _⟩ => show win1_4.index t (0 : Fin 2) * 32 + 1 * k.val = k.val; rw [e0]; omega
  | ⟨1, _⟩ => show win1_4.index t (1 : Fin 2) * 32 + 1 * q.val = q.val; rw [e1]; omega

/-- The third weight array's one block is the whole array, at every point. -/
theorem read_w2 (c : Dev nD) (t : Fin cfg1.N) (k : Fin 32) (q : Fin 32) :
    (iblk1 V c 5 t : Vec Ideal S32x32 .f32) (ix2 k q) = (V c main_v102 : S32x32.Idx → Elt Ideal .f32) (ix2 k q) := by
  obtain ⟨-, -, -, -, -, -, -, -, -, -, e0, e1, -⟩ := idx_facts t
  unfold iblk1
  rw [View.read_apply]
  show V c main_v102 (((cfg1.win 5).blk t).view.emb (ix2 k q)) = V c main_v102 (ix2 k q)
  refine congrArg _ (funext fun a => Fin.ext ?_)
  match a with
  | ⟨0, _⟩ => show win1_5.index t (0 : Fin 2) * 32 + 1 * k.val = k.val; rw [e0]; omega
  | ⟨1, _⟩ => show win1_5.index t (1 : Fin 2) * 32 + 1 * q.val = q.val; rw [e1]; omega

/-- The bias's one block is the whole array, at every point. -/
theorem read_b (c : Dev nD) (t : Fin cfg1.N) (q : Fin 32) :
    (iblk1 V c 6 t : Vec Ideal S32 .f32) (ix1 q) = (V c main_arg4 : S32.Idx → Elt Ideal .f32) (ix1 q) := by
  obtain ⟨-, -, -, -, -, -, -, -, -, -, -, -, e0, -⟩ := idx_facts t
  unfold iblk1
  rw [View.read_apply]
  show V c main_arg4 (((cfg1.win 6).blk t).view.emb (ix1 q)) = V c main_arg4 (ix1 q)
  refine congrArg _ (funext fun a => Fin.ext ?_)
  match a with
  | ⟨0, _⟩ => show win1_6.index t (0 : Fin 1) * 32 + 1 * q.val = q.val; rw [e0]; omega

/-- Row `p`, column `q` of point `t`'s block of the output sits at row `5000·t + p`, column `q` of the array. -/
theorem emb_out (t : Fin cfg1.N) (p : Fin 5000) (q : Fin 32) (r : Fin 100000) (hr : r.val = 5000 * t.val + p.val) :
    ((cfg1.win 7).blk t).view.emb (ix2 p q) = (ix2 r q : S100000x32.Idx) := by
  obtain ⟨-, -, -, -, -, -, -, -, -, -, -, -, -, e0, e1⟩ := idx_facts t
  refine funext fun a => Fin.ext ?_
  match a with
  | ⟨0, _⟩ => show win1_7.index t (0 : Fin 2) * 5000 + 1 * p.val = r.val; rw [e0, hr]; omega
  | ⟨1, _⟩ => show win1_7.index t (1 : Fin 2) * 32 + 1 * q.val = q.val; rw [e1]; omega

/-- WHAT POINT `t` WRITES BACK is block `t` of any whole-array function `G` that reads, at node `r` and output
    feature `j`, the clamped sum of the three products and the bias entry of the arrays the region finds
    (`X0 X1 X2` the three node-feature arrays, `W0 W1 W2` the weights, `B` the bias). -/
theorem flushed_of (c : Dev nD) (X0 X1 X2 : S100000x32.Idx → Elt Ideal .f32) (W0 W1 W2 : S32x32.Idx → Elt Ideal .f32)
    (B : S32.Idx → Elt Ideal .f32)
    (h0 : V c main_v67 = X0) (h1 : V c main_v80 = X1) (h2 : V c main_v96 = X2)
    (g0 : V c main_v98 = W0) (g1 : V c main_v100 = W1) (g2 : V c main_v102 = W2) (hb : V c main_arg4 = B)
    (G : S100000x32.Idx → Elt Ideal .f32)
    (hG : ∀ (r : Fin 100000) (j : Fin 32), G (ix2 r j)
      = max ((((∑ k : Fin 32, X0 (ix2 r k) * W0 (ix2 k j)) + ∑ k : Fin 32, X1 (ix2 r k) * W1 (ix2 k j))
          + ∑ k : Fin 32, X2 (ix2 r k) * W2 (ix2 k j)) + B (ix1 j)) 0)
    (t : Fin cfg1.N) :
    (dat1 V c).flushed 7 t = ((cfg1.win 7).blk t).view.read (Elt Ideal) G := by
  subst h0 h1 h2 g0 g1 g2 hb
  have hN : grid1.N = 20 := N_1
  show (cfg1.win 7).cut (grid1.coords t) ((dat1 V c).after 7 t) = _
  rw [after1_7]
  unfold out1_7
  rw [View.canon_unit_zero hz]
  simp only [View.ld_unit_zero (S := S5000x32) hz, View.ld_unit_zero (S := S32x32) hz, View.ld_unit_zero (S := S32) hz1]
  funext y
  obtain ⟨p, q, rfl⟩ : ∃ (p : Fin 5000) (q : Fin 32), y = ix2 p q := ⟨y 0, y 1, eq_ix2 y⟩
  have ht : t.val < 20 := hN ▸ t.isLt
  have hr : 5000 * t.val + p.val < 100000 := by have := p.isLt; omega
  show k1_pay1 (F := Ideal) (iblk1 V c 0 t) (iblk1 V c 3 t) (iblk1 V c 1 t) (iblk1 V c 4 t) (iblk1 V c 2 t) (iblk1 V c 5 t) (iblk1 V c 6 t) (ix2 p q)
    = G (((cfg1.win 7).blk t).view.emb (ix2 p q))
  rw [emb_out t p q ⟨5000 * t.val + p.val, hr⟩ rfl, hG, pay_apply]
  simp only [read_x0 V c t p _ ⟨5000 * t.val + p.val, hr⟩ rfl, read_x1 V c t p _ ⟨5000 * t.val + p.val, hr⟩ rfl,
    read_x2 V c t p _ ⟨5000 * t.val + p.val, hr⟩ rfl, read_w0 V c t, read_w1 V c t, read_w2 V c t, read_b V c t]

/-- An index of the output array is in point `t`'s block iff each coordinate is in the block's range on its axis. -/
theorem mem_blk (t : Fin cfg1.N) (i : S100000x32.Idx) :
    i ∈ ((cfg1.win 7).blk t).view.set ↔ ∀ a : Fin 2, win1_7.index t a * S5000x32.size a ≤ (i a).val ∧ (i a).val < win1_7.index t a * S5000x32.size a + S5000x32.size a := by
  show i ∈ ((View.whole main_v103).slice (win1_7.rect t)).set ↔ _
  rw [View.set_slice_whole, Rect.mem_set_unit]
  exact Iff.rfl

/-- The blocks tile the output: row `r` is in the block of point `r / 5000`. -/
theorem cover (i : S100000x32.Idx) :
    ∃ t : Fin cfg1.N, (cfg1.win 7).flush t = true ∧ i ∈ ((cfg1.win 7).blk t).view.set := by
  have hN : grid1.N = 20 := N_1
  have hi0 : (i 0).val < 100000 := (i 0).isLt
  have hi1 : (i 1).val < 32 := (i 1).isLt
  have hlt : (i 0).val / 5000 < grid1.N := by rw [hN]; omega
  refine ⟨⟨(i 0).val / 5000, hlt⟩, flush1_7 _, ?_⟩
  obtain ⟨-, -, -, -, -, -, -, -, -, -, -, -, -, e0, e1⟩ := idx_facts ⟨(i 0).val / 5000, hlt⟩
  rw [mem_blk]
  intro a
  match a with
  | ⟨0, _⟩ =>
    show win1_7.index ⟨(i 0).val / 5000, hlt⟩ (0 : Fin 2) * 5000 ≤ (i 0).val ∧ (i 0).val < win1_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, hlt⟩ (1 : Fin 2) * 32 ≤ (i 1).val ∧ (i 1).val < win1_7.index ⟨(i 0).val / 5000, hlt⟩ (1 : Fin 2) * 32 + 32
    rw [e1]; omega

/-- So the output array ends holding any such `G`. -/
theorem arr_of (c : Dev nD) (X0 X1 X2 : S100000x32.Idx → Elt Ideal .f32) (W0 W1 W2 : S32x32.Idx → Elt Ideal .f32)
    (B : S32.Idx → Elt Ideal .f32)
    (h0 : V c main_v67 = X0) (h1 : V c main_v80 = X1) (h2 : V c main_v96 = X2)
    (g0 : V c main_v98 = W0) (g1 : V c main_v100 = W1) (g2 : V c main_v102 = W2) (hb : V c main_arg4 = B)
    (G : S100000x32.Idx → Elt Ideal .f32)
    (hG : ∀ (r : Fin 100000) (j : Fin 32), G (ix2 r j)
      = max ((((∑ k : Fin 32, X0 (ix2 r k) * W0 (ix2 k j)) + ∑ k : Fin 32, X1 (ix2 r k) * W1 (ix2 k j))
          + ∑ k : Fin 32, X2 (ix2 r k) * W2 (ix2 k j)) + B (ix1 j)) 0) :
    (dat1 V c).arrAt 7 cfg1.N = G :=
  (dat1 V c).arrAt_eq_of_cover 7 G (fun t _ => flushed_of V c X0 X1 X2 W0 W1 W2 B h0 h1 h2 g0 g1 g2 hb G hG t) cover

/-- THE OUTPUT ARRAY of the second layer's kernel, for any contents `V` the region is entered with, is the dense layer
    on 32 input features of the seven arrays it reads. -/
theorem arr_eq (V : (c : Dev nD) → (b : Ref sig .tc) → Buf (Elt Ideal) ((c : Thread nD τ).loc b)) (c : Dev nD) :
    (Cert.KernelIdeal.Gen.dat1 (F := Ideal) V c).arrAt 7 cfg1.N
      = Cert.Dense.cheb32 (V c main_v67) (V c main_v80) (V c main_v96) (V c main_v98) (V c main_v100) (V c main_v102) (V c main_arg4) :=
  arr_of V c (V c main_v67) (V c main_v80) (V c main_v96) (V c main_v98) (V c main_v100) (V c main_v102) (V c main_arg4)
    rfl rfl rfl rfl rfl rfl rfl _
    (fun r j => Cert.Dense.cheb32_apply (V c main_v67) (V c main_v80) (V c main_v96) (V c main_v98) (V c main_v100) (V c main_v102) (V c main_arg4) r j)

end Cert.KernelIdeal.Layer2

end
-- ==== Proof.HeadKernel.lean ====
/-
  The head's tiled kernel, read as one whole-array function.

  The kernel has a single grid point.  Each of its four windows is the whole of its array: the pooled graph features
  [2000,32], the weight column [32,1], the one bias entry [1], and the result [2000,1].  The body stores
  `p·w + b`: a matrix product accumulated from zero (the narrowing casts before it are the identity on the extended
  reals) plus the bias entry viewed as a [1,1] array and repeated over the 2000 rows.  Read at (graph g, column u) this is
  `Σₖ p[g,k]·w[k,u] + b[u]`, which is what the host's head reads there; the one block written back is the whole result
  array, so the result array ends holding the host's head of the arrays the region found.
-/
import proofs.«102793_j35287451304635_1_alg».proof.Proof.Gen.KernelIdeal.Frame
import proofs.«102793_j35287451304635_1_alg».proof.Proof.Dense
import Idealize.ShloMosaic.Lib.Pipeline.Value
import Idealize.ShloMosaic.Lib.ValueIdx
import Idealize.ShloMosaic.PureOps.Ideal.Laws

noncomputable section

namespace Cert.KernelIdeal.HeadKernel

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The kernel's matrix product of a [2000,32] array with a [32,1] array into a zero accumulator, read at row `r` and
    column `j`: the sum over the 32 contracted positions of the products, on the extended reals. -/
theorem mm_apply (x : FVec Ideal S2000x32 .bf16) (w : FVec Ideal S32x1 .bf16) (r : Fin 2000) (j : Fin 1) :
    matmul (F := Ideal) dot_S2000x32_S32x1_S2000x1_1_0_0_1_n_n none x w (constant (F := Ideal) S2000x1 .f32 0x00000000#32) (ix2 r j)
      = ∑ k : Fin 32, x (ix2 r k) * w (ix2 k j) := by
  simp only [matmul]
  rw [Ideal.matmul_constant_zero_apply, ← Equiv.sum_comp (ValueIdx.contrEquiv1 dot_S2000x32_S32x1_S2000x1_1_0_0_1_n_n 32 rfl rfl).symm]
  refine Finset.sum_congr rfl fun k _ => ?_
  have hk := ValueIdx.contrEquiv1_symm_val dot_S2000x32_S32x1_S2000x1_1_0_0_1_n_n 32 rfl rfl k
  have el : dot_S2000x32_S32x1_S2000x1_1_0_0_1_n_n.lhsIdx (ix2 r j) ((ValueIdx.contrEquiv1 dot_S2000x32_S32x1_S2000x1_1_0_0_1_n_n 32 rfl rfl).symm k) = ix2 r k :=
    funext fun a => Fin.ext (by
      match a with
      | ⟨0, _⟩ =>
        show (dot_S2000x32_S32x1_S2000x1_1_0_0_1_n_n.lhsIdx (ix2 r j) _ 0).val = r.val
        unfold DotDims.lhsIdx
        rw [dif_neg (show ¬(0 : Fin S2000x32.rank) ∈ dot_S2000x32_S32x1_S2000x1_1_0_0_1_n_n.lhsBatch by decide),
          dif_pos (show (0 : Fin S2000x32.rank) ∈ dot_S2000x32_S32x1_S2000x1_1_0_0_1_n_n.lhsNonContracting by decide)]
        rfl
      | ⟨1, _⟩ => exact (dot_S2000x32_S32x1_S2000x1_1_0_0_1_n_n.lhsIdx_val_of_single rfl (ix2 r j) _).trans hk)
  have er : dot_S2000x32_S32x1_S2000x1_1_0_0_1_n_n.rhsIdx (ix2 r j) ((ValueIdx.contrEquiv1 dot_S2000x32_S32x1_S2000x1_1_0_0_1_n_n 32 rfl rfl).symm k) = ix2 k j :=
    funext fun a => Fin.ext (by
      match a with
      | ⟨0, _⟩ => exact (dot_S2000x32_S32x1_S2000x1_1_0_0_1_n_n.rhsIdx_val_of_single rfl (ix2 r j) _).trans hk
      | ⟨1, _⟩ =>
        show (dot_S2000x32_S32x1_S2000x1_1_0_0_1_n_n.rhsIdx (ix2 r j) _ 1).val = j.val
        unfold DotDims.rhsIdx
        rw [dif_neg (show ¬(1 : Fin S32x1.rank) ∈ dot_S2000x32_S32x1_S2000x1_1_0_0_1_n_n.rhsBatch by decide),
          dif_pos (show (1 : Fin S32x1.rank) ∈ dot_S2000x32_S32x1_S2000x1_1_0_0_1_n_n.rhsNonContracting by decide)]
        rfl)
  rw [el, er]

/-- The one bias entry, viewed as a [1,1] array and repeated over the 2000 rows, reads itself at every row. -/
theorem bias_apply (b : Vec Ideal S1 .f32) (g : Fin 2000) (u : Fin 1) :
    broadcastTo S2000x1 (shapeCast S1x1 b shapeCasts_S1_S1x1) broadcasts_S1x1_S2000x1 (ix2 g u) = b (ix1 u) := by
  have hu : u.val = 0 := by have := u.isLt; omega
  rw [broadcastTo_apply _ broadcasts_S1x1_S2000x1 (ix2 g u) (ix2 (0 : Fin 1) (0 : Fin 1)) (fun a => by
      match a with
      | ⟨0, _⟩ => rfl
      | ⟨1, _⟩ => rfl),
    shapeCast_apply b shapeCasts_S1_S1x1 (ix2 (0 : Fin 1) (0 : Fin 1)) (ix1 u) (by
      rw [Shape.rowMajor_val_one, Shape.rowMajor_val_two]
      show u.val = 0 * 1 + 0
      omega)]

/-- The body's stored value read at graph `g` (and the one output column `u`): `Σₖ p[g,k]·w[k,u] + b[u]`. -/
theorem pay_apply (p : Vec Ideal S2000x32 .f32) (w : Vec Ideal S32x1 .f32) (b : Vec Ideal S1 .f32) (g : Fin 2000) (u : Fin 1) :
    k2_pay1 (F := Ideal) p w b (ix2 g u) = (∑ k : Fin 32, p (ix2 g k) * w (ix2 k u)) + b (ix1 u) := by
  unfold k2_pay1
  rw [addf_apply, mm_apply, bias_apply]
  simp only [truncf_apply, shapeCast_self]

/-- The kernel's stored value is the host's head of the same three arrays: both read `Σₖ p[g,k]·w[k,u] + b[u]` at (g, u). -/
theorem pay_eq_head (p : Vec Ideal S2000x32 .f32) (w : Vec Ideal S32x1 .f32) (b : Vec Ideal S1 .f32) :
    (k2_pay1 (F := Ideal) p w b : S2000x1.Idx → EReal) = Cert.Dense.head p w b := by
  funext j
  obtain ⟨g, u, rfl⟩ : ∃ (g : Fin 2000) (u : Fin 1), j = ix2 g u := ⟨j 0, j 1, eq_ix2 j⟩
  rw [pay_apply, Cert.Dense.head_apply]

/-- The zero offsets of a rank-2 whole-array access, however they are spelt. -/
theorem zeros2 : (![0, 0] : Fin 2 → Nat) = fun _ => 0 := funext fun a => by fin_cases a <;> rfl
/-- The zero offset of a rank-1 whole-array access. -/
theorem zeros1 : (![0] : Fin 1 → Nat) = fun _ => 0 := funext fun a => by fin_cases a <;> rfl

/-- At the one grid point every window's block index is zero on every axis: each block is its whole array. -/
theorem index_zero : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0 :=
  (by decide +kernel : ∀ t : Fin grid2.N, _)

section Region
variable (V : (c : Dev nD) → (b : Ref sig .tc) → Buf (Elt Ideal) ((c : Thread nD τ).loc b))

/-- The pooled features' block at the point is the whole pooled array as the region finds it. -/
theorem blk_p (c : Dev nD) (t : Fin cfg2.N) : (iblk2 V c 0 t : S2000x32.Idx → EReal) = V c main_v115 := by
  obtain ⟨e0, e1, -, -, -, -, -⟩ := index_zero t
  funext y
  unfold iblk2
  rw [View.read_apply]
  show V c main_v115 (((cfg2.win 0).blk t).view.emb y) = V c main_v115 y
  congr 1
  funext a; apply Fin.ext
  match a with
  | ⟨0, _⟩ => show win2_0.index t (0 : Fin 2) * 2000 + 1 * (y 0).val = (y 0).val; omega
  | ⟨1, _⟩ => show win2_0.index t (1 : Fin 2) * 32 + 1 * (y 1).val = (y 1).val; omega

/-- The weight's block at the point is the whole weight column. -/
theorem blk_w (c : Dev nD) (t : Fin cfg2.N) : (iblk2 V c 1 t : S32x1.Idx → EReal) = V c main_arg5 := by
  obtain ⟨-, -, e0, e1, -, -, -⟩ := index_zero t
  funext y
  unfold iblk2
  rw [View.read_apply]
  show V c main_arg5 (((cfg2.win 1).blk t).view.emb y) = V c main_arg5 y
  congr 1
  funext a; apply Fin.ext
  match a with
  | ⟨0, _⟩ => show win2_1.index t (0 : Fin 2) * 32 + 1 * (y 0).val = (y 0).val; omega
  | ⟨1, _⟩ => show win2_1.index t (1 : Fin 2) * 1 + 1 * (y 1).val = (y 1).val; omega

/-- The bias's block at the point is the whole one-entry bias. -/
theorem blk_b (c : Dev nD) (t : Fin cfg2.N) : (iblk2 V c 2 t : S1.Idx → EReal) = V c main_arg6 := by
  obtain ⟨-, -, -, -, e0, -, -⟩ := index_zero t
  funext y
  unfold iblk2
  rw [View.read_apply]
  show V c main_arg6 (((cfg2.win 2).blk t).view.emb y) = V c main_arg6 y
  congr 1
  funext a; apply Fin.ext
  match a with
  | ⟨0, _⟩ => show win2_2.index t (0 : Fin 1) * 1 + 1 * (y 0).val = (y 0).val; omega

/-- What the point writes back is its block — the whole result array — of the host's head of the arrays the region found. -/
theorem flushed_eq (c : Dev nD) (t : Fin cfg2.N) :
    (dat2 (F := Ideal) V c).flushed 3 t
      = ((cfg2.win 3).blk t).view.read (Elt Ideal) (Cert.Dense.head (V c main_v115) (V c main_arg5) (V c main_arg6)) := by
  show (cfg2.win 3).cut (grid2.coords t) ((dat2 (F := Ideal) V c).after 3 t) = _
  rw [after2_3]
  unfold out2_3
  rw [View.canon_unit_zero zeros2]
  simp only [View.ld_unit_zero (S := S2000x32) zeros2, View.ld_unit_zero (S := S32x1) zeros2, View.ld_unit_zero (S := S1) zeros1]
  rw [blk_p V c t, blk_w V c t, blk_b V c t, pay_eq_head]
  obtain ⟨-, -, -, -, -, e0, e1⟩ := index_zero t
  funext j
  show Cert.Dense.head (V c main_v115) (V c main_arg5) (V c main_arg6) ((cfg2.win 3).xinj (grid2.coords t) j)
    = Cert.Dense.head (V c main_v115) (V c main_arg5) (V c main_arg6) (((cfg2.win 3).blk t).view.emb j)
  congr 1
  funext a; apply Fin.ext
  match a with
  | ⟨0, _⟩ => show (j 0).val = win2_3.index t (0 : Fin 2) * 2000 + 1 * (j 0).val; omega
  | ⟨1, _⟩ => show (j 1).val = win2_3.index t (1 : Fin 2) * 1 + 1 * (j 1).val; omega

/-- Every index of the result array lies in the one point's block. -/
theorem cover (i : S2000x1.Idx) : ∃ t : Fin cfg2.N, (cfg2.win 3).flush t = true ∧ i ∈ ((cfg2.win 3).blk t).view.set := by
  obtain ⟨-, -, -, -, -, e0, e1⟩ := index_zero t2_0
  refine ⟨t2_0, flush2_3 t2_0, ?_⟩
  show i ∈ ((View.whole main_v116).slice (win2_3.rect t2_0)).set
  rw [View.set_slice_whole, Rect.mem_set_unit]
  intro a
  have h0 : (i 0).val < 2000 := (i 0).isLt
  have h1 : (i 1).val < 1 := (i 1).isLt
  match a with
  | ⟨0, _⟩ => show win2_3.index t2_0 (0 : Fin 2) * 2000 ≤ (i 0).val ∧ (i 0).val < win2_3.index t2_0 (0 : Fin 2) * 2000 + 2000; omega
  | ⟨1, _⟩ => show win2_3.index t2_0 (1 : Fin 2) * 1 ≤ (i 1).val ∧ (i 1).val < win2_3.index t2_0 (1 : Fin 2) * 1 + 1; omega

/-- The result array after the region: the host's head of the pooled features, the weight column and the bias entry as the
    region found them. -/
theorem arr_eq (c : Dev nD) :
    (dat2 (F := Ideal) V c).arrAt 3 cfg2.N = Cert.Dense.head (V c main_v115) (V c main_arg5) (V c main_arg6) :=
  (dat2 (F := Ideal) V c).arrAt_eq_of_cover 3 _ (fun t _ => flushed_eq V c t) cover

end Region

end Cert.KernelIdeal.HeadKernel

end
-- ==== Proof.LibTransport.lean ====
/-
  Transport of a value along "this buffer's type is the value's type".

  An operation of an outlined host function reads and writes its buffers through typed references: a value of type `T`
  is written to a buffer `r` with `r.ty = T` by transporting it along that equation, and read back by the transport the
  other way.  Whatever the equation's proof, a transported value is heterogeneously equal to the value itself.
-/
import Idealize.ShloMosaic.Lib.StableHlo

namespace Cert.Lib.Transport

open Idealize.ShloMosaic Idealize.ShloMosaic.StableHlo

variable {sig : RefSig} {T : BufTy} {Val : EltTy → Type}

/-- A value written through a typed reference is, up to the type equation it is carried along, the value.
    For a LITERAL reference the two types agree by computation, so `(TRef.of r).toBuf v = v` is well typed and is
    `eq_of_heq (toBuf_heq (TRef.of r) v)`.  State that equation for a VARIABLE `v` and rewrite with it: comparing the two sides
    by computation instead has to normalise `v` itself, and for a vector computed by a scatter or a gather that means
    evaluating it. -/
theorem toBuf_heq (x : TRef sig T) (v : T.Contents Val) : HEq (x.toBuf v) v :=
  cast_heq _ v

/-- A value read back through a typed reference is, up to the same type equation, the buffer's contents.
    For a literal reference `(TRef.of r).ofBuf v = v` is `eq_of_heq (ofBuf_heq (TRef.of r) v)` (name the reference: the type of `v`
    depends on it); use it as `toBuf_heq`. -/
theorem ofBuf_heq (x : TRef sig T) (v : x.ref.ty.Contents Val) : HEq (x.ofBuf v) v :=
  cast_heq _ v

end Cert.Lib.Transport
-- ==== Proof.Entry1.lean ====
/-
  The contents of the buffers when the first Chebyshev layer's kernel is entered.

  Before the first kernel the host computes, from the edge list, the symmetric normalisation `w = -d[row]·d[col]` with
  `d = deg^(-1/2)` where the degree is positive and zero elsewhere, the propagated features `Tx1 = L̂ x` (gather the
  source rows, scale by `w`, add into the destination rows) and `Tx2 = 2·L̂ Tx1 - x`, and the three [78,32] slices of
  the weight tensor.  The reference performs the same operations in the same order, so each buffer the kernel reads
  holds the reference's stage of the same arguments; the argument buffers themselves are untouched.  The operations come
  in three stretches (up to the choice `where (deg > 0) …`, the choice, and the rest): each stretch is read with the
  buffers it starts from already named, so that no comparison looks further back than one stretch.
-/
import proofs.«102793_j35287451304635_1_alg».proof.Proof.Gen.KernelIdeal.Frame
import proofs.«102793_j35287451304635_1_alg».proof.Proof.RefRead
import proofs.«102793_j35287451304635_1_alg».proof.Proof.LibTransport
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Up to the choice: the degrees, their positivity, the reciprocal roots, the edges' ends -/

/-- Where the degree is positive. -/
theorem pre_pos : W1 m ρ c (Proc.devRef .tc main_v9) = Cert.ReferenceIdeal.ReadP.val_main_v9 (F := Ideal) (m ((c : Thread nD τ).loc main_arg7)) := by
  show StableHlo.after hostOps0 (W0 m ρ c) (Proc.devRef .tc main_v9) = _
  generalize hV : W0 m ρ c = V₀
  after_results_simp
  subst hV
  all_goals rfl

/-- The reciprocal root of the degree clamped below at one. -/
theorem pre_rsqrt : W1 m ρ c (Proc.devRef .tc main_v14) = Cert.ReferenceIdeal.ReadP.val_main_v14 (F := Ideal) (m ((c : Thread nD τ).loc main_arg7)) := by
  show StableHlo.after hostOps0 (W0 m ρ c) (Proc.devRef .tc main_v14) = _
  generalize hV : W0 m ρ c = V₀
  after_results_simp
  subst hV
  all_goals rfl

/-- The zero the choice falls back to. -/
theorem pre_zero : W1 m ρ c (Proc.devRef .tc main_cst_4) = Cert.ReferenceIdeal.ReadP.val_main_cst_4 (F := Ideal) := by
  show StableHlo.after hostOps0 (W0 m ρ c) (Proc.devRef .tc main_cst_4) = _
  generalize hV : W0 m ρ c = V₀
  after_results_simp
  subst hV
  all_goals rfl

/-- The destination node of each edge. -/
theorem pre_row : W1 m ρ c (Proc.devRef .tc main_v1) = Cert.ReferenceIdeal.ReadP.val_main_v1 (F := Ideal) (m ((c : Thread nD τ).loc main_arg7)) := by
  show StableHlo.after hostOps0 (W0 m ρ c) (Proc.devRef .tc main_v1) = _
  generalize hV : W0 m ρ c = V₀
  after_results_simp
  subst hV
  all_goals rfl

/-- The source node of each edge. -/
theorem pre_col : W1 m ρ c (Proc.devRef .tc main_v3) = Cert.ReferenceIdeal.ReadP.val_main_v3 (F := Ideal) (m ((c : Thread nD τ).loc main_arg7)) := by
  show StableHlo.after hostOps0 (W0 m ρ c) (Proc.devRef .tc main_v3) = _
  generalize hV : W0 m ρ c = V₀
  after_results_simp
  subst hV
  all_goals rfl

/-- Argument 0 is as launched. -/
theorem pre_arg0 : W1 m ρ c (Proc.devRef .tc main_arg0) = (m ((c : Thread nD τ).loc main_arg0)) := by
  show StableHlo.after hostOps0 (W0 m ρ c) (Proc.devRef .tc main_arg0) = _
  generalize hV : W0 m ρ c = V₀
  after_results_simp
  subst hV
  all_goals rfl

/-- Argument 1 is as launched. -/
theorem pre_arg1 : W1 m ρ c (Proc.devRef .tc main_arg1) = (m ((c : Thread nD τ).loc main_arg1)) := by
  show StableHlo.after hostOps0 (W0 m ρ c) (Proc.devRef .tc main_arg1) = _
  generalize hV : W0 m ρ c = V₀
  after_results_simp
  subst hV
  all_goals rfl

/-- Argument 2 is as launched. -/
theorem pre_arg2 : W1 m ρ c (Proc.devRef .tc main_arg2) = (m ((c : Thread nD τ).loc main_arg2)) := by
  show StableHlo.after hostOps0 (W0 m ρ c) (Proc.devRef .tc main_arg2) = _
  generalize hV : W0 m ρ c = V₀
  after_results_simp
  subst hV
  all_goals rfl

/-- Argument 3 is as launched. -/
theorem pre_arg3 : W1 m ρ c (Proc.devRef .tc main_arg3) = (m ((c : Thread nD τ).loc main_arg3)) := by
  show StableHlo.after hostOps0 (W0 m ρ c) (Proc.devRef .tc main_arg3) = _
  generalize hV : W0 m ρ c = V₀
  after_results_simp
  subst hV
  all_goals rfl

/-- Argument 4 is as launched. -/
theorem pre_arg4 : W1 m ρ c (Proc.devRef .tc main_arg4) = (m ((c : Thread nD τ).loc main_arg4)) := by
  show StableHlo.after hostOps0 (W0 m ρ c) (Proc.devRef .tc main_arg4) = _
  generalize hV : W0 m ρ c = V₀
  after_results_simp
  subst hV
  all_goals rfl

/-- Argument 5 is as launched. -/
theorem pre_arg5 : W1 m ρ c (Proc.devRef .tc main_arg5) = (m ((c : Thread nD τ).loc main_arg5)) := by
  show StableHlo.after hostOps0 (W0 m ρ c) (Proc.devRef .tc main_arg5) = _
  generalize hV : W0 m ρ c = V₀
  after_results_simp
  subst hV
  all_goals rfl

/-- Argument 6 is as launched. -/
theorem pre_arg6 : W1 m ρ c (Proc.devRef .tc main_arg6) = (m ((c : Thread nD τ).loc main_arg6)) := by
  show StableHlo.after hostOps0 (W0 m ρ c) (Proc.devRef .tc main_arg6) = _
  generalize hV : W0 m ρ c = V₀
  after_results_simp
  subst hV
  all_goals rfl

/-- Argument 8 is as launched. -/
theorem pre_arg8 : W1 m ρ c (Proc.devRef .tc main_arg8) = (m ((c : Thread nD τ).loc main_arg8)) := by
  show StableHlo.after hostOps0 (W0 m ρ c) (Proc.devRef .tc main_arg8) = _
  generalize hV : W0 m ρ c = V₀
  after_results_simp
  subst hV
  all_goals rfl

/-! ## The choice `d = where (deg > 0) (deg^(-1/2)) 0` -/

/-! ### Transport along a buffer's own type

The choice is an outlined function, and its operations read and write their buffers through a transport along the
equation "this buffer's type is the value's type".  For these literal buffers the two types are the same by
computation, so the transport is the identity; stated for a variable value, each is rewritten away before any
comparison is made. -/

/-- Writing the normalisation to its buffer. -/
theorem to_d (v : ((⟨S100000, .f32⟩ : BufTy).Contents (Elt Ideal))) : (TRef.of (sig := sig) (T := ⟨S100000, .f32⟩) main_v15).toBuf (Val := Elt Ideal) v = v :=
  eq_of_heq (Cert.Lib.Transport.toBuf_heq (TRef.of (sig := sig) (T := ⟨S100000, .f32⟩) main_v15) v)

/-- Reading the positivity mask from its buffer. -/
theorem of_pos (v : ((⟨S100000, .i1⟩ : BufTy).Contents (Elt Ideal))) : (TRef.of (sig := sig) (T := ⟨S100000, .i1⟩) main_v9).ofBuf (Val := Elt Ideal) v = v :=
  eq_of_heq (Cert.Lib.Transport.ofBuf_heq (TRef.of (sig := sig) (T := ⟨S100000, .i1⟩) main_v9) v)

/-- Reading the reciprocal roots from their buffer. -/
theorem of_rsqrt (v : ((⟨S100000, .f32⟩ : BufTy).Contents (Elt Ideal))) : (TRef.of (sig := sig) (T := ⟨S100000, .f32⟩) main_v14).ofBuf (Val := Elt Ideal) v = v :=
  eq_of_heq (Cert.Lib.Transport.ofBuf_heq (TRef.of (sig := sig) (T := ⟨S100000, .f32⟩) main_v14) v)

/-- Reading the broadcast zero from its buffer. -/
theorem of_fill (v : ((⟨S100000, .f32⟩ : BufTy).Contents (Elt Ideal))) : (TRef.of (sig := sig) (T := ⟨S100000, .f32⟩) main_call0_v1).ofBuf (Val := Elt Ideal) v = v :=
  eq_of_heq (Cert.Lib.Transport.ofBuf_heq (TRef.of (sig := sig) (T := ⟨S100000, .f32⟩) main_call0_v1) v)

/-- Writing the broadcast zero to its buffer. -/
theorem to_fill (v : ((⟨S100000, .f32⟩ : BufTy).Contents (Elt Ideal))) : (TRef.of (sig := sig) (T := ⟨S100000, .f32⟩) main_call0_v1).toBuf (Val := Elt Ideal) v = v :=
  eq_of_heq (Cert.Lib.Transport.toBuf_heq (TRef.of (sig := sig) (T := ⟨S100000, .f32⟩) main_call0_v1) v)

/-- Reading the converted zero from its buffer. -/
theorem of_conv (v : ((⟨S_, .f32⟩ : BufTy).Contents (Elt Ideal))) : (TRef.of (sig := sig) (T := ⟨S_, .f32⟩) main_call0_v0).ofBuf (Val := Elt Ideal) v = v :=
  eq_of_heq (Cert.Lib.Transport.ofBuf_heq (TRef.of (sig := sig) (T := ⟨S_, .f32⟩) main_call0_v0) v)

/-- Writing the converted zero to its buffer. -/
theorem to_conv (v : ((⟨S_, .f32⟩ : BufTy).Contents (Elt Ideal))) : (TRef.of (sig := sig) (T := ⟨S_, .f32⟩) main_call0_v0).toBuf (Val := Elt Ideal) v = v :=
  eq_of_heq (Cert.Lib.Transport.toBuf_heq (TRef.of (sig := sig) (T := ⟨S_, .f32⟩) main_call0_v0) v)

/-- Reading the zero from its buffer. -/
theorem of_zero (v : ((⟨S_, .f32⟩ : BufTy).Contents (Elt Ideal))) : (TRef.of (sig := sig) (T := ⟨S_, .f32⟩) main_cst_4).ofBuf (Val := Elt Ideal) v = v :=
  eq_of_heq (Cert.Lib.Transport.ofBuf_heq (TRef.of (sig := sig) (T := ⟨S_, .f32⟩) main_cst_4) v)

/-- The normalisation `d`. -/
theorem sel_d : W2 m ρ c (Proc.devRef .tc main_v15) = Cert.ReferenceIdeal.ReadP.val_main_v15 (F := Ideal) (m ((c : Thread nD τ).loc main_arg7)) := by
  show StableHlo.after hostOps0_1 (W1 m ρ c) (Proc.devRef .tc main_v15) = _
  generalize hV : W1 m ρ c = V₀
  after_results_simp
  subst hV
  simp only [to_d, of_pos, of_rsqrt, of_fill, to_fill, of_conv, to_conv, of_zero]
  simp only [pre_pos m ρ c, pre_rsqrt m ρ c, pre_zero m ρ c]
  rfl

/-- The edges' destination nodes are not written by the choice. -/
theorem sel_row : W2 m ρ c (Proc.devRef .tc main_v1) = Cert.ReferenceIdeal.ReadP.val_main_v1 (F := Ideal) (m ((c : Thread nD τ).loc main_arg7)) := by
  show StableHlo.after hostOps0_1 (W1 m ρ c) (Proc.devRef .tc main_v1) = _
  generalize hV : W1 m ρ c = V₀
  after_results_simp
  subst hV
  simp only [pre_row m ρ c]
  all_goals rfl

/-- The edges' source nodes are not written by the choice. -/
theorem sel_col : W2 m ρ c (Proc.devRef .tc main_v3) = Cert.ReferenceIdeal.ReadP.val_main_v3 (F := Ideal) (m ((c : Thread nD τ).loc main_arg7)) := by
  show StableHlo.after hostOps0_1 (W1 m ρ c) (Proc.devRef .tc main_v3) = _
  generalize hV : W1 m ρ c = V₀
  after_results_simp
  subst hV
  simp only [pre_col m ρ c]
  all_goals rfl

/-- Argument 0 is not written by the choice. -/
theorem sel_arg0 : W2 m ρ c (Proc.devRef .tc main_arg0) = (m ((c : Thread nD τ).loc main_arg0)) := by
  show StableHlo.after hostOps0_1 (W1 m ρ c) (Proc.devRef .tc main_arg0) = _
  generalize hV : W1 m ρ c = V₀
  after_results_simp
  subst hV
  simp only [pre_arg0 m ρ c]
  all_goals rfl

/-- Argument 1 is not written by the choice. -/
theorem sel_arg1 : W2 m ρ c (Proc.devRef .tc main_arg1) = (m ((c : Thread nD τ).loc main_arg1)) := by
  show StableHlo.after hostOps0_1 (W1 m ρ c) (Proc.devRef .tc main_arg1) = _
  generalize hV : W1 m ρ c = V₀
  after_results_simp
  subst hV
  simp only [pre_arg1 m ρ c]
  all_goals rfl

/-- Argument 2 is not written by the choice. -/
theorem sel_arg2 : W2 m ρ c (Proc.devRef .tc main_arg2) = (m ((c : Thread nD τ).loc main_arg2)) := by
  show StableHlo.after hostOps0_1 (W1 m ρ c) (Proc.devRef .tc main_arg2) = _
  generalize hV : W1 m ρ c = V₀
  after_results_simp
  subst hV
  simp only [pre_arg2 m ρ c]
  all_goals rfl

/-- Argument 3 is not written by the choice. -/
theorem sel_arg3 : W2 m ρ c (Proc.devRef .tc main_arg3) = (m ((c : Thread nD τ).loc main_arg3)) := by
  show StableHlo.after hostOps0_1 (W1 m ρ c) (Proc.devRef .tc main_arg3) = _
  generalize hV : W1 m ρ c = V₀
  after_results_simp
  subst hV
  simp only [pre_arg3 m ρ c]
  all_goals rfl

/-- Argument 4 is not written by the choice. -/
theorem sel_arg4 : W2 m ρ c (Proc.devRef .tc main_arg4) = (m ((c : Thread nD τ).loc main_arg4)) := by
  show StableHlo.after hostOps0_1 (W1 m ρ c) (Proc.devRef .tc main_arg4) = _
  generalize hV : W1 m ρ c = V₀
  after_results_simp
  subst hV
  simp only [pre_arg4 m ρ c]
  all_goals rfl

/-- Argument 5 is not written by the choice. -/
theorem sel_arg5 : W2 m ρ c (Proc.devRef .tc main_arg5) = (m ((c : Thread nD τ).loc main_arg5)) := by
  show StableHlo.after hostOps0_1 (W1 m ρ c) (Proc.devRef .tc main_arg5) = _
  generalize hV : W1 m ρ c = V₀
  after_results_simp
  subst hV
  simp only [pre_arg5 m ρ c]
  all_goals rfl

/-- Argument 6 is not written by the choice. -/
theorem sel_arg6 : W2 m ρ c (Proc.devRef .tc main_arg6) = (m ((c : Thread nD τ).loc main_arg6)) := by
  show StableHlo.after hostOps0_1 (W1 m ρ c) (Proc.devRef .tc main_arg6) = _
  generalize hV : W1 m ρ c = V₀
  after_results_simp
  subst hV
  simp only [pre_arg6 m ρ c]
  all_goals rfl

/-- Argument 8 is not written by the choice. -/
theorem sel_arg8 : W2 m ρ c (Proc.devRef .tc main_arg8) = (m ((c : Thread nD τ).loc main_arg8)) := by
  show StableHlo.after hostOps0_1 (W1 m ρ c) (Proc.devRef .tc main_arg8) = _
  generalize hV : W1 m ρ c = V₀
  after_results_simp
  subst hV
  simp only [pre_arg8 m ρ c]
  all_goals rfl

/-! ## The rest: the edge weights, the two propagations, the weight slices -/

/-- The node features are as launched. -/
theorem in1_x : W3 m ρ c (Proc.devRef .tc main_arg0) = (m ((c : Thread nD τ).loc main_arg0)) := by
  show StableHlo.after hostOps0_2 (W2 m ρ c) (Proc.devRef .tc main_arg0) = _
  generalize hV : W2 m ρ c = V₀
  after_results_simp
  subst hV
  simp only [sel_arg0 m ρ c]
  all_goals rfl

/-- The first propagation `L̂ x`. -/
theorem in1_tx1 : W3 m ρ c (Proc.devRef .tc main_v44) = Cert.ReferenceIdeal.ReadP.val_main_v47 (F := Ideal) (m ((c : Thread nD τ).loc main_arg0)) (m ((c : Thread nD τ).loc main_arg7)) := by
  show StableHlo.after hostOps0_2 (W2 m ρ c) (Proc.devRef .tc main_v44) = _
  generalize hV : W2 m ρ c = V₀
  after_results_simp
  subst hV
  simp only [sel_d m ρ c, sel_row m ρ c, sel_col m ρ c, sel_arg0 m ρ c]
  all_goals rfl

/-- The second Chebyshev term `2·L̂(L̂ x) - x`. -/
theorem in1_tx2 : W3 m ρ c (Proc.devRef .tc main_v60) = Cert.ReferenceIdeal.ReadP.val_main_v67 (F := Ideal) (m ((c : Thread nD τ).loc main_arg0)) (m ((c : Thread nD τ).loc main_arg7)) := by
  show StableHlo.after hostOps0_2 (W2 m ρ c) (Proc.devRef .tc main_v60) = _
  generalize hV : W2 m ρ c = V₀
  after_results_simp
  subst hV
  simp only [sel_d m ρ c, sel_row m ρ c, sel_col m ρ c, sel_arg0 m ρ c]
  all_goals rfl

/-- The weight slice of order 0. -/
theorem in1_w0 : W3 m ρ c (Proc.devRef .tc main_v62) = Cert.ReferenceIdeal.ReadP.val_main_v33 (F := Ideal) (m ((c : Thread nD τ).loc main_arg1)) := by
  show StableHlo.after hostOps0_2 (W2 m ρ c) (Proc.devRef .tc main_v62) = _
  generalize hV : W2 m ρ c = V₀
  after_results_simp
  subst hV
  simp only [sel_arg1 m ρ c]
  all_goals rfl

/-- The weight slice of order 1. -/
theorem in1_w1 : W3 m ρ c (Proc.devRef .tc main_v64) = Cert.ReferenceIdeal.ReadP.val_main_v49 (F := Ideal) (m ((c : Thread nD τ).loc main_arg1)) := by
  show StableHlo.after hostOps0_2 (W2 m ρ c) (Proc.devRef .tc main_v64) = _
  generalize hV : W2 m ρ c = V₀
  after_results_simp
  subst hV
  simp only [sel_arg1 m ρ c]
  all_goals rfl

/-- The weight slice of order 2. -/
theorem in1_w2 : W3 m ρ c (Proc.devRef .tc main_v66) = Cert.ReferenceIdeal.ReadP.val_main_v69 (F := Ideal) (m ((c : Thread nD τ).loc main_arg1)) := by
  show StableHlo.after hostOps0_2 (W2 m ρ c) (Proc.devRef .tc main_v66) = _
  generalize hV : W2 m ρ c = V₀
  after_results_simp
  subst hV
  simp only [sel_arg1 m ρ c]
  all_goals rfl

/-- The first layer's bias is as launched. -/
theorem in1_b : W3 m ρ c (Proc.devRef .tc main_arg2) = (m ((c : Thread nD τ).loc main_arg2)) := by
  show StableHlo.after hostOps0_2 (W2 m ρ c) (Proc.devRef .tc main_arg2) = _
  generalize hV : W2 m ρ c = V₀
  after_results_simp
  subst hV
  simp only [sel_arg2 m ρ c]
  all_goals rfl

/-- The edge weights `-d[row]·d[col]`. -/
theorem in1_ew : W3 m ρ c (Proc.devRef .tc main_v31) = Cert.ReferenceIdeal.ReadP.val_main_v31 (F := Ideal) (m ((c : Thread nD τ).loc main_arg7)) := by
  show StableHlo.after hostOps0_2 (W2 m ρ c) (Proc.devRef .tc main_v31) = _
  generalize hV : W2 m ρ c = V₀
  after_results_simp
  subst hV
  simp only [sel_d m ρ c, sel_row m ρ c, sel_col m ρ c]
  all_goals rfl

/-- The destination node of each edge. -/
theorem in1_row : W3 m ρ c (Proc.devRef .tc main_v1) = Cert.ReferenceIdeal.ReadP.val_main_v1 (F := Ideal) (m ((c : Thread nD τ).loc main_arg7)) := by
  show StableHlo.after hostOps0_2 (W2 m ρ c) (Proc.devRef .tc main_v1) = _
  generalize hV : W2 m ρ c = V₀
  after_results_simp
  subst hV
  simp only [sel_row m ρ c]
  all_goals rfl

/-- The source node of each edge. -/
theorem in1_col : W3 m ρ c (Proc.devRef .tc main_v3) = Cert.ReferenceIdeal.ReadP.val_main_v3 (F := Ideal) (m ((c : Thread nD τ).loc main_arg7)) := by
  show StableHlo.after hostOps0_2 (W2 m ρ c) (Proc.devRef .tc main_v3) = _
  generalize hV : W2 m ρ c = V₀
  after_results_simp
  subst hV
  simp only [sel_col m ρ c]
  all_goals rfl

/-- Argument 3 is as launched. -/
theorem in1_arg3 : W3 m ρ c (Proc.devRef .tc main_arg3) = (m ((c : Thread nD τ).loc main_arg3)) := by
  show StableHlo.after hostOps0_2 (W2 m ρ c) (Proc.devRef .tc main_arg3) = _
  generalize hV : W2 m ρ c = V₀
  after_results_simp
  subst hV
  simp only [sel_arg3 m ρ c]
  all_goals rfl

/-- Argument 4 is as launched. -/
theorem in1_arg4 : W3 m ρ c (Proc.devRef .tc main_arg4) = (m ((c : Thread nD τ).loc main_arg4)) := by
  show StableHlo.after hostOps0_2 (W2 m ρ c) (Proc.devRef .tc main_arg4) = _
  generalize hV : W2 m ρ c = V₀
  after_results_simp
  subst hV
  simp only [sel_arg4 m ρ c]
  all_goals rfl

/-- Argument 5 is as launched. -/
theorem in1_arg5 : W3 m ρ c (Proc.devRef .tc main_arg5) = (m ((c : Thread nD τ).loc main_arg5)) := by
  show StableHlo.after hostOps0_2 (W2 m ρ c) (Proc.devRef .tc main_arg5) = _
  generalize hV : W2 m ρ c = V₀
  after_results_simp
  subst hV
  simp only [sel_arg5 m ρ c]
  all_goals rfl

/-- Argument 6 is as launched. -/
theorem in1_arg6 : W3 m ρ c (Proc.devRef .tc main_arg6) = (m ((c : Thread nD τ).loc main_arg6)) := by
  show StableHlo.after hostOps0_2 (W2 m ρ c) (Proc.devRef .tc main_arg6) = _
  generalize hV : W2 m ρ c = V₀
  after_results_simp
  subst hV
  simp only [sel_arg6 m ρ c]
  all_goals rfl

/-- Argument 8 is as launched. -/
theorem in1_arg8 : W3 m ρ c (Proc.devRef .tc main_arg8) = (m ((c : Thread nD τ).loc main_arg8)) := by
  show StableHlo.after hostOps0_2 (W2 m ρ c) (Proc.devRef .tc main_arg8) = _
  generalize hV : W2 m ρ c = V₀
  after_results_simp
  subst hV
  simp only [sel_arg8 m ρ c]
  all_goals rfl

end Cert.KernelIdeal.Walk

end
-- ==== Proof.Tiles.lean ====
/-
  What each of the three tiled kernels is to leave in its output array, stated for ANY contents of the buffers when the
  kernel is entered: the dense function (proof/Proof/Dense.lean) of the arrays its input windows read.  The first two
  kernels walk the 100000 node rows in twenty blocks of 5000 with the weights and the bias resident; the head's kernel
  runs once on whole arrays.
-/
import proofs.«102793_j35287451304635_1_alg».proof.Proof.Gen.KernelIdeal.Frame
import proofs.«102793_j35287451304635_1_alg».proof.Proof.Dense

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

/-- The first layer's kernel leaves `relu (((x·W₀ + Tx1·W₁) + Tx2·W₂) + b)` of its seven input arrays. -/
def Layer1Tiles : Prop := ∀ (V : (c : Dev nD) → (b : Ref sig .tc) → Buf (Elt Ideal) ((c : Thread nD τ).loc b)) (c : Dev nD),
  (dat0 (F := Ideal) V c).arrAt 7 cfg0.N
    = Cert.Dense.cheb78 (V c main_arg0) (V c main_v44) (V c main_v60) (V c main_v62) (V c main_v64) (V c main_v66) (V c main_arg2)

/-- The second layer's kernel leaves the same function, on 32 input features, of its seven input arrays. -/
def Layer2Tiles : Prop := ∀ (V : (c : Dev nD) → (b : Ref sig .tc) → Buf (Elt Ideal) ((c : Thread nD τ).loc b)) (c : Dev nD),
  (dat1 (F := Ideal) V c).arrAt 7 cfg1.N
    = Cert.Dense.cheb32 (V c main_v67) (V c main_v80) (V c main_v96) (V c main_v98) (V c main_v100) (V c main_v102) (V c main_arg4)

/-- The head's kernel leaves `p·w + b` of its three input arrays. -/
def HeadTiles : Prop := ∀ (V : (c : Dev nD) → (b : Ref sig .tc) → Buf (Elt Ideal) ((c : Thread nD τ).loc b)) (c : Dev nD),
  (dat2 (F := Ideal) V c).arrAt 3 cfg2.N = Cert.Dense.head (V c main_v115) (V c main_arg5) (V c main_arg6)

end Cert.KernelIdeal.Walk

end
-- ==== Proof.Entry2.lean ====
/-
  From the first layer's kernel to the second's.

  The first kernel's output array holds the first hidden features `h = relu (…)`; every other buffer is as it was at
  the kernel's entry.  The host then propagates `h` twice along the edges with the same edge weights (`L̂ h` and
  `2·L̂(L̂ h) - h`) and slices the second weight tensor: again the reference's operations in the reference's order.
-/
import proofs.«102793_j35287451304635_1_alg».proof.Proof.Entry1
import proofs.«102793_j35287451304635_1_alg».proof.Proof.Tiles

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
variable (m : (ℓ : Loc nD τ sig) → Buf (Elt Ideal) ℓ) (ρ : Dev nD → PrngReg) (c : Dev nD)

/-- The first hidden features: what the first kernel leaves, at the contents it was entered with. -/
theorem out1 (h1 : Layer1Tiles) : W4 m ρ c (Proc.devRef .tc main_v67) = Cert.ReferenceIdeal.ReadP.val_main_v75 (F := Ideal) (m ((c : Thread nD τ).loc main_arg0)) (m ((c : Thread nD τ).loc main_arg1)) (m ((c : Thread nD τ).loc main_arg2)) (m ((c : Thread nD τ).loc main_arg7)) := by
  refine (W4_arr m ρ c 7).trans ((h1 (V3 m ρ) c).trans ?_)
  simp only [V3]
  rw [in1_x m ρ c, in1_tx1 m ρ c, in1_tx2 m ρ c, in1_w0 m ρ c, in1_w1 m ρ c, in1_w2 m ρ c, in1_b m ρ c]
  rfl

/-- The edge weights are untouched by the first kernel. -/
theorem keep1_ew : W4 m ρ c (Proc.devRef .tc main_v31) = Cert.ReferenceIdeal.ReadP.val_main_v31 (F := Ideal) (m ((c : Thread nD τ).loc main_arg7)) :=
  (W4_of_ne m ρ c main_v31 (by decide)).trans (in1_ew m ρ c)

/-- The edges' destination nodes are untouched by the first kernel. -/
theorem keep1_row : W4 m ρ c (Proc.devRef .tc main_v1) = Cert.ReferenceIdeal.ReadP.val_main_v1 (F := Ideal) (m ((c : Thread nD τ).loc main_arg7)) :=
  (W4_of_ne m ρ c main_v1 (by decide)).trans (in1_row m ρ c)

/-- The edges' source nodes are untouched by the first kernel. -/
theorem keep1_col : W4 m ρ c (Proc.devRef .tc main_v3) = Cert.ReferenceIdeal.ReadP.val_main_v3 (F := Ideal) (m ((c : Thread nD τ).loc main_arg7)) :=
  (W4_of_ne m ρ c main_v3 (by decide)).trans (in1_col m ρ c)

/-- Argument 3 is untouched by the first kernel. -/
theorem keep1_arg3 : W4 m ρ c (Proc.devRef .tc main_arg3) = (m ((c : Thread nD τ).loc main_arg3)) :=
  (W4_of_ne m ρ c main_arg3 (by decide)).trans (in1_arg3 m ρ c)

/-- Argument 4 is untouched by the first kernel. -/
theorem keep1_arg4 : W4 m ρ c (Proc.devRef .tc main_arg4) = (m ((c : Thread nD τ).loc main_arg4)) :=
  (W4_of_ne m ρ c main_arg4 (by decide)).trans (in1_arg4 m ρ c)

/-- Argument 5 is untouched by the first kernel. -/
theorem keep1_arg5 : W4 m ρ c (Proc.devRef .tc main_arg5) = (m ((c : Thread nD τ).loc main_arg5)) :=
  (W4_of_ne m ρ c main_arg5 (by decide)).trans (in1_arg5 m ρ c)

/-- Argument 6 is untouched by the first kernel. -/
theorem keep1_arg6 : W4 m ρ c (Proc.devRef .tc main_arg6) = (m ((c : Thread nD τ).loc main_arg6)) :=
  (W4_of_ne m ρ c main_arg6 (by decide)).trans (in1_arg6 m ρ c)

/-- Argument 8 is untouched by the first kernel. -/
theorem keep1_arg8 : W4 m ρ c (Proc.devRef .tc main_arg8) = (m ((c : Thread nD τ).loc main_arg8)) :=
  (W4_of_ne m ρ c main_arg8 (by decide)).trans (in1_arg8 m ρ c)

/-- The hidden features are not written between the two kernels. -/
theorem in2_h (h1 : Layer1Tiles) : W5 m ρ c (Proc.devRef .tc main_v67) = Cert.ReferenceIdeal.ReadP.val_main_v75 (F := Ideal) (m ((c : Thread nD τ).loc main_arg0)) (m ((c : Thread nD τ).loc main_arg1)) (m ((c : Thread nD τ).loc main_arg2)) (m ((c : Thread nD τ).loc main_arg7)) := by
  show StableHlo.after hostOps1 (W4 m ρ c) (Proc.devRef .tc main_v67) = _
  after_results_simp
  simp only [out1 m ρ c h1]
  all_goals rfl

/-- The first propagation of the hidden features. -/
theorem in2_tx1 (h1 : Layer1Tiles) : W5 m ρ c (Proc.devRef .tc main_v80) = Cert.ReferenceIdeal.ReadP.val_main_v91 (F := Ideal) (m ((c : Thread nD τ).loc main_arg0)) (m ((c : Thread nD τ).loc main_arg1)) (m ((c : Thread nD τ).loc main_arg2)) (m ((c : Thread nD τ).loc main_arg7)) := by
  show StableHlo.after hostOps1 (W4 m ρ c) (Proc.devRef .tc main_v80) = _
  after_results_simp
  simp only [out1 m ρ c h1, keep1_ew m ρ c, keep1_row m ρ c, keep1_col m ρ c]
  all_goals rfl

/-- The second Chebyshev term of the hidden features. -/
theorem in2_tx2 (h1 : Layer1Tiles) : W5 m ρ c (Proc.devRef .tc main_v96) = Cert.ReferenceIdeal.ReadP.val_main_v111 (F := Ideal) (m ((c : Thread nD τ).loc main_arg0)) (m ((c : Thread nD τ).loc main_arg1)) (m ((c : Thread nD τ).loc main_arg2)) (m ((c : Thread nD τ).loc main_arg7)) := by
  show StableHlo.after hostOps1 (W4 m ρ c) (Proc.devRef .tc main_v96) = _
  after_results_simp
  simp only [out1 m ρ c h1, keep1_ew m ρ c, keep1_row m ρ c, keep1_col m ρ c]
  all_goals rfl

/-- The second weight tensor's slice of order 0. -/
theorem in2_w0 : W5 m ρ c (Proc.devRef .tc main_v98) = Cert.ReferenceIdeal.ReadP.val_main_v77 (F := Ideal) (m ((c : Thread nD τ).loc main_arg3)) := by
  show StableHlo.after hostOps1 (W4 m ρ c) (Proc.devRef .tc main_v98) = _
  after_results_simp
  simp only [keep1_arg3 m ρ c]
  all_goals rfl

/-- The second weight tensor's slice of order 1. -/
theorem in2_w1 : W5 m ρ c (Proc.devRef .tc main_v100) = Cert.ReferenceIdeal.ReadP.val_main_v93 (F := Ideal) (m ((c : Thread nD τ).loc main_arg3)) := by
  show StableHlo.after hostOps1 (W4 m ρ c) (Proc.devRef .tc main_v100) = _
  after_results_simp
  simp only [keep1_arg3 m ρ c]
  all_goals rfl

/-- The second weight tensor's slice of order 2. -/
theorem in2_w2 : W5 m ρ c (Proc.devRef .tc main_v102) = Cert.ReferenceIdeal.ReadP.val_main_v113 (F := Ideal) (m ((c : Thread nD τ).loc main_arg3)) := by
  show StableHlo.after hostOps1 (W4 m ρ c) (Proc.devRef .tc main_v102) = _
  after_results_simp
  simp only [keep1_arg3 m ρ c]
  all_goals rfl

/-- Argument 4 is not written between the two kernels. -/
theorem in2_arg4 : W5 m ρ c (Proc.devRef .tc main_arg4) = (m ((c : Thread nD τ).loc main_arg4)) := by
  show StableHlo.after hostOps1 (W4 m ρ c) (Proc.devRef .tc main_arg4) = _
  after_results_simp
  simp only [keep1_arg4 m ρ c]
  all_goals rfl

/-- Argument 5 is not written between the two kernels. -/
theorem in2_arg5 : W5 m ρ c (Proc.devRef .tc main_arg5) = (m ((c : Thread nD τ).loc main_arg5)) := by
  show StableHlo.after hostOps1 (W4 m ρ c) (Proc.devRef .tc main_arg5) = _
  after_results_simp
  simp only [keep1_arg5 m ρ c]
  all_goals rfl

/-- Argument 6 is not written between the two kernels. -/
theorem in2_arg6 : W5 m ρ c (Proc.devRef .tc main_arg6) = (m ((c : Thread nD τ).loc main_arg6)) := by
  show StableHlo.after hostOps1 (W4 m ρ c) (Proc.devRef .tc main_arg6) = _
  after_results_simp
  simp only [keep1_arg6 m ρ c]
  all_goals rfl

/-- Argument 8 is not written between the two kernels. -/
theorem in2_arg8 : W5 m ρ c (Proc.devRef .tc main_arg8) = (m ((c : Thread nD τ).loc main_arg8)) := by
  show StableHlo.after hostOps1 (W4 m ρ c) (Proc.devRef .tc main_arg8) = _
  after_results_simp
  simp only [keep1_arg8 m ρ c]
  all_goals rfl

end Cert.KernelIdeal.Walk

end
-- ==== Proof.Entry3.lean ====
/-
  From the second layer's kernel to the head's.

  The second kernel's output array holds the second hidden features; the host then pools them per graph — the sum of
  each graph's node rows divided by the graph's node count, the count clamped below at one — exactly as the reference does.
-/
import proofs.«102793_j35287451304635_1_alg».proof.Proof.Entry2

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
variable (m : (ℓ : Loc nD τ sig) → Buf (Elt Ideal) ℓ) (ρ : Dev nD → PrngReg) (c : Dev nD)

/-- The second hidden features: what the second kernel leaves, at the contents it was entered with. -/
theorem out2 (h1 : Layer1Tiles) (h2 : Layer2Tiles) : W6 m ρ c (Proc.devRef .tc main_v103) = Cert.ReferenceIdeal.ReadP.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (W6_arr m ρ c 7).trans ((h2 (V5 m ρ) c).trans ?_)
  simp only [V5]
  rw [in2_h m ρ c h1, in2_tx1 m ρ c h1, in2_tx2 m ρ c h1, in2_w0 m ρ c, in2_w1 m ρ c, in2_w2 m ρ c, in2_arg4 m ρ c]
  rfl

/-- Argument 5 is untouched by the second kernel. -/
theorem keep2_arg5 : W6 m ρ c (Proc.devRef .tc main_arg5) = (m ((c : Thread nD τ).loc main_arg5)) :=
  (W6_of_ne m ρ c main_arg5 (by decide)).trans (in2_arg5 m ρ c)

/-- Argument 6 is untouched by the second kernel. -/
theorem keep2_arg6 : W6 m ρ c (Proc.devRef .tc main_arg6) = (m ((c : Thread nD τ).loc main_arg6)) :=
  (W6_of_ne m ρ c main_arg6 (by decide)).trans (in2_arg6 m ρ c)

/-- Argument 8 is untouched by the second kernel. -/
theorem keep2_arg8 : W6 m ρ c (Proc.devRef .tc main_arg8) = (m ((c : Thread nD τ).loc main_arg8)) :=
  (W6_of_ne m ρ c main_arg8 (by decide)).trans (in2_arg8 m ρ c)

/-- The pooled features: per graph, the mean of its nodes' rows. -/
theorem in3_p (h1 : Layer1Tiles) (h2 : Layer2Tiles) : W7 m ρ c (Proc.devRef .tc main_v115) = Cert.ReferenceIdeal.ReadP.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  show StableHlo.after hostOps2 (W6 m ρ c) (Proc.devRef .tc main_v115) = _
  after_results_simp
  simp only [out2 m ρ c h1 h2, keep2_arg8 m ρ c]
  all_goals rfl

/-- Argument 5 is not written by the pooling. -/
theorem in3_arg5 : W7 m ρ c (Proc.devRef .tc main_arg5) = (m ((c : Thread nD τ).loc main_arg5)) := by
  show StableHlo.after hostOps2 (W6 m ρ c) (Proc.devRef .tc main_arg5) = _
  after_results_simp
  simp only [keep2_arg5 m ρ c]
  all_goals rfl

/-- Argument 6 is not written by the pooling. -/
theorem in3_arg6 : W7 m ρ c (Proc.devRef .tc main_arg6) = (m ((c : Thread nD τ).loc main_arg6)) := by
  show StableHlo.after hostOps2 (W6 m ρ c) (Proc.devRef .tc main_arg6) = _
  after_results_simp
  simp only [keep2_arg6 m ρ c]
  all_goals rfl

end Cert.KernelIdeal.Walk

end
-- ==== Proof.Result.lean ====
/-
  The kernel's result.

  The head's kernel leaves `pooled·w + b` in a [2000,1] array, which the closing reshape reads as the 2000 results.  Put
  together with the two layers before it, the result buffer ends at the reference's last stage of the nine arguments.
-/
import proofs.«102793_j35287451304635_1_alg».proof.Proof.Entry3

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
variable (m : (ℓ : Loc nD τ sig) → Buf (Elt Ideal) ℓ) (ρ : Dev nD → PrngReg) (c : Dev nD)

/-- What the head's kernel leaves, at the contents it was entered with. -/
theorem out3 (h1 : Layer1Tiles) (h2 : Layer2Tiles) (h3 : HeadTiles) : W8 m ρ c (Proc.devRef .tc main_v116) = Cert.ReferenceIdeal.ReadP.val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 3).trans ((h3 (V7 m ρ) c).trans ?_)
  simp only [V7]
  rw [in3_p m ρ c h1 h2, in3_arg5 m ρ c, in3_arg6 m ρ c]
  rfl

/-- THE RESULT: after the closing reshape the result buffer holds the reference's last stage of the arguments. -/
theorem result (h1 : Layer1Tiles) (h2 : Layer2Tiles) (h3 : HeadTiles) : W9 m ρ c (Proc.devRef .tc main_v117) = Cert.ReferenceIdeal.ReadP.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W8 m ρ c) (Proc.devRef .tc main_v117) = _
  after_results_simp
  simp only [out3 m ρ c h1 h2 h3]
  all_goals rfl

end Cert.KernelIdeal.Walk

end
-- ==== Proof.lean ====
/-
  A two-layer Chebyshev graph network with a pooled linear head, as three tiled kernels among host operations, against
  the same network written in jnp: equal results on the extended reals.

  Both programs compute, from the edge list, the degrees, the normalisation `d = deg^(-1/2)` (zero where the degree is
  zero) and the edge weights `w = -d[row]·d[col]`; propagate features along the edges (`L̂ h`: gather the source rows,
  scale by `w`, add into the destination rows); form `Tx0 = h`, `Tx1 = L̂ h`, `Tx2 = 2·L̂ Tx1 - h`; apply
  `relu (((Tx0·W₀ + Tx1·W₁) + Tx2·W₂) + b)` twice; pool the node rows per graph by their mean; and apply `p·w + b`.
  The kernel program hands the three dense steps to tiled kernels — the two layers over twenty blocks of 5000 node rows
  with resident weights, the head on whole arrays — whose matrix products accumulate from zero and whose operands pass
  through a narrower float format, which changes nothing on the extended reals.  Everything else is the same host
  operations in the same order.

  So the comparison needs no algebraic law beyond reading a tile back as rows of the whole array: each kernel's output
  array is the dense function of its input arrays (proof/Proof/Layer1.lean, Layer2.lean, HeadKernel.lean, against
  proof/Proof/Dense.lean), the buffers between the kernels are the reference's stages of the arguments
  (proof/Proof/Entry1.lean … Result.lean), and the kernel program's run names its result (proof/Proof/KernelRun.lean).
  Finiteness of the inputs is never used: no step distributes, cancels, or moves a factor across a sum.
-/
import proofs.«102793_j35287451304635_1_alg».proof.Defs
import proofs.«102793_j35287451304635_1_alg».proof.Proof.Gen.Kernel
import proofs.«102793_j35287451304635_1_alg».proof.Proof.Gen.Kernel.Skeleton
import proofs.«102793_j35287451304635_1_alg».proof.Proof.Gen.Kernel.Launch
import proofs.«102793_j35287451304635_1_alg».proof.Proof.Gen.Kernel.Points
import proofs.«102793_j35287451304635_1_alg».proof.Proof.Gen.Kernel.Frame
import proofs.«102793_j35287451304635_1_alg».proof.Proof.Gen.KernelIdeal
import proofs.«102793_j35287451304635_1_alg».proof.Proof.Gen.KernelIdeal.Skeleton
import proofs.«102793_j35287451304635_1_alg».proof.Proof.Gen.KernelIdeal.Launch
import proofs.«102793_j35287451304635_1_alg».proof.Proof.Gen.KernelIdeal.Points
import proofs.«102793_j35287451304635_1_alg».proof.Proof.Gen.KernelIdeal.Frame
import proofs.«102793_j35287451304635_1_alg».proof.Proof.Gen.ReferenceIdeal
import proofs.«102793_j35287451304635_1_alg».proof.Proof.Gen.Pre_finite_inputs
import proofs.«102793_j35287451304635_1_alg».proof.Proof.RefRun
import proofs.«102793_j35287451304635_1_alg».proof.Proof.RefRead
import proofs.«102793_j35287451304635_1_alg».proof.Proof.KernelRun
import proofs.«102793_j35287451304635_1_alg».proof.Proof.Layer1
import proofs.«102793_j35287451304635_1_alg».proof.Proof.Layer2
import proofs.«102793_j35287451304635_1_alg».proof.Proof.HeadKernel
import proofs.«102793_j35287451304635_1_alg».proof.Proof.Result
import Idealize.ShloMosaic.Adequacy
import Idealize.ShloMosaic.Init

noncomputable section

namespace Cert.Proof

open Idealize.ShloMosaic Idealize.SL.Sem

/-- The printed kernel program runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the nine arguments both programs end with the same 2000 results: the kernel program's
    result buffer holds the reference's last stage of its arguments (`Walk.result`, given the three tile lemmas), and the
    reference's run ends at that stage of its own. -/
theorem algebraic : Cert.algebraic_KernelIdeal_ReferenceIdeal := by
  intro m ρ m' ρ' _ hagree
  refine ⟨fun c => Cert.KernelIdeal.Gen.W9 m ρ c (Proc.devRef .tc Cert.KernelIdeal.main_v117),
    Cert.KernelIdeal.Named.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8⟩ := hagree c
  rw [Cert.ReferenceIdeal.ReadP.val_main_v136_eq, e0, e1, e2, e3, e4, e5, e6, e7, e8]
  exact (Cert.KernelIdeal.Walk.result m ρ c Cert.KernelIdeal.Layer1.arr_eq Cert.KernelIdeal.Layer2.arr_eq
    Cert.KernelIdeal.HeadKernel.arr_eq).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
